-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x10000 : Shape := ⟨2, ![256, 10000]⟩
abbrev S256 : Shape := ⟨1, ![256]⟩
abbrev S256x1 : Shape := ⟨2, ![256, 1]⟩
abbrev S200000x64 : Shape := ⟨2, ![200000, 64]⟩
abbrev S64x64 : Shape := ⟨2, ![64, 64]⟩
abbrev S10000x64 : Shape := ⟨2, ![10000, 64]⟩
abbrev S10000 : Shape := ⟨1, ![10000]⟩
abbrev S400000 : Shape := ⟨1, ![400000]⟩
abbrev S1200000 : Shape := ⟨1, ![1200000]⟩
abbrev S1 : Shape := ⟨1, ![1]⟩
abbrev S_ : Shape := ⟨0, ![]⟩

class Facts : Prop where
  bcast_S_S256x10000 : S_.BroadcastsInDim S256x10000 (![] : Fin 0 → Fin S256x10000.rank)
  reducesTo_S256x10000_S_d0_1 : S256x10000.ReducesTo [0, 1] S_
  h_S_ : 0 < S_.numel
  bcast_S_S200000x64 : S_.BroadcastsInDim S200000x64 (![] : Fin 0 → Fin S200000x64.rank)
  reducesTo_S200000x64_S_d0_1 : S200000x64.ReducesTo [0, 1] S_
  bcast_S_S64x64 : S_.BroadcastsInDim S64x64 (![] : Fin 0 → Fin S64x64.rank)
  reducesTo_S64x64_S_d0_1 : S64x64.ReducesTo [0, 1] S_
  bcast_S_S10000x64 : S_.BroadcastsInDim S10000x64 (![] : Fin 0 → Fin S10000x64.rank)
  reducesTo_S10000x64_S_d0_1 : S10000x64.ReducesTo [0, 1] S_
  bcast_S_S10000 : S_.BroadcastsInDim S10000 (![] : Fin 0 → Fin S10000.rank)
  reducesTo_S10000_S_d0 : S10000.ReducesTo [0] S_
  bcast_S_S400000 : S_.BroadcastsInDim S400000 (![] : Fin 0 → Fin S400000.rank)
  reducesTo_S400000_S_d0 : S400000.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S10000 .f32) (main_arg9 : FVec F S400000 .f32) (main_arg12 : FVec F S1 .f32) (main_v13 : IVec S_ 1) (main_v16 : IVec S10000x64 1) : IVec S_ 1 :=
  let main_c_5 : IVec S_ 1 := constantI S_ 1 1#1
  let main_v17 : IVec S_ 1 := (fun x v => Host.reduce IntOp.andi x v reducesTo_S10000x64_S_d0_1 h_S_) main_v16 main_c_5
  let main_v18 : IVec S_ 1 := andi main_v13 main_v17
  let main_v19 : FVec F S10000 .f32 := Host.absf main_arg6
  let main_cst_6 : FVec F S_ .f32 := constant S_ .f32 0x7F800000#32
  let main_v20 : FVec F S10000 .f32 := broadcastInDim S10000 ![] bcast_S_S10000 main_cst_6
  let main_v21 : IVec S10000 1 := cmpf .olt main_v19 main_v20
  let main_c_7 : IVec S_ 1 := constantI S_ 1 1#1
  let main_v22 : IVec S_ 1 := (fun x v => Host.reduce IntOp.andi x v reducesTo_S10000_S_d0 h_S_) main_v21 main_c_7
  let main_v23 : IVec S_ 1 := andi main_v18 main_v22
  let main_v24 : FVec F S400000 .f32 := Host.absf main_arg9
  let main_cst_8 : FVec F S_ .f32 := constant S_ .f32 0x7F800000#32
  let main_v25 : FVec F S400000 .f32 := broadcastInDim S400000 ![] bcast_S_S400000 main_cst_8
  let main_v26 : IVec S400000 1 := cmpf .olt main_v24 main_v25
  let main_c_9 : IVec S_ 1 := constantI S_ 1 1#1
  let main_v27 : IVec S_ 1 := (fun x v => Host.reduce IntOp.andi x v reducesTo_S400000_S_d0 h_S_) main_v26 main_c_9
  let main_v28 : IVec S_ 1 := andi main_v23 main_v27
  let main_v29 : FVec F S1 .f32 := Host.absf main_arg12
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S256x10000 .f32) (main_arg1 : IVec S256 32) (main_arg2 : IVec S256x1 32) (main_arg3 : FVec F S200000x64 .f32) (main_arg4 : FVec F S64x64 .f32) (main_arg5 : FVec F S10000x64 .f32) (main_arg6 : FVec F S10000 .f32) (main_arg7 : IVec S400000 32) (main_arg8 : IVec S400000 32) (main_arg9 : FVec F S400000 .f32) (main_arg10 : IVec S1200000 32) (main_arg11 : IVec S1200000 32) (main_arg12 : FVec F S1 .f32) : IVec S_ 1 :=
  let main_v0 : FVec F S256x10000 .f32 := Host.absf main_arg0
  let main_cst : FVec F S_ .f32 := constant S_ .f32 0x7F800000#32
  let main_v1 : FVec F S256x10000 .f32 := broadcastInDim S256x10000 ![] bcast_S_S256x10000 main_cst
  let main_v2 : IVec S256x10000 1 := cmpf .olt main_v0 main_v1
  let main_c : IVec S_ 1 := constantI S_ 1 1#1
  let main_v3 : IVec S_ 1 := (fun x v => Host.reduce IntOp.andi x v reducesTo_S256x10000_S_d0_1 h_S_) main_v2 main_c
  let main_v4 : FVec F S200000x64 .f32 := Host.absf main_arg3
  let main_cst_0 : FVec F S_ .f32 := constant S_ .f32 0x7F800000#32
  let main_v5 : FVec F S200000x64 .f32 := broadcastInDim S200000x64 ![] bcast_S_S200000x64 main_cst_0
  let main_v6 : IVec S200000x64 1 := cmpf .olt main_v4 main_v5
  let main_c_1 : IVec S_ 1 := constantI S_ 1 1#1
  let main_v7 : IVec S_ 1 := (fun x v => Host.reduce IntOp.andi x v reducesTo_S200000x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S10000x64 .f32 := Host.absf main_arg5
  let main_cst_4 : FVec F S_ .f32 := constant S_ .f32 0x7F800000#32
  let main_v15 : FVec F S10000x64 .f32 := broadcastInDim S10000x64 ![] bcast_S_S10000x64 main_cst_4
  let main_v16 : IVec S10000x64 1 := cmpf .olt main_v14 main_v15
  fn_part1 (F := F) main_arg6 main_arg9 main_arg12 main_v13 main_v16
-- ==== Kernel.lean ====
abbrev S256x10000 : Shape := ⟨2, ![256, 10000]⟩
abbrev S256 : Shape := ⟨1, ![256]⟩
abbrev S256x1 : Shape := ⟨2, ![256, 1]⟩
abbrev S200000x64 : Shape := ⟨2, ![200000, 64]⟩
abbrev S64x64 : Shape := ⟨2, ![64, 64]⟩
abbrev S10000x64 : Shape := ⟨2, ![10000, 64]⟩
abbrev S10000 : Shape := ⟨1, ![10000]⟩
abbrev S400000 : Shape := ⟨1, ![400000]⟩
abbrev S1200000 : Shape := ⟨1, ![1200000]⟩
abbrev S1 : Shape := ⟨1, ![1]⟩
abbrev S10000x256 : Shape := ⟨2, ![10000, 256]⟩
abbrev S400000x1 : Shape := ⟨2, ![400000, 1]⟩
abbrev S_ : Shape := ⟨0, ![]⟩
abbrev S400000x256 : Shape := ⟨2, ![400000, 256]⟩
abbrev S20000x256 : Shape := ⟨2, ![20000, 256]⟩
abbrev S1200000x1 : Shape := ⟨2, ![1200000, 1]⟩
abbrev S1200000x64 : Shape := ⟨2, ![1200000, 64]⟩
abbrev S12000x64 : Shape := ⟨2, ![12000, 64]⟩
abbrev S256x64 : Shape := ⟨2, ![256, 64]⟩
abbrev S256x10240 : Shape := ⟨2, ![256, 10240]⟩
abbrev S10240x64 : Shape := ⟨2, ![10240, 64]⟩
abbrev S10240 : Shape := ⟨1, ![10240]⟩
abbrev S1x10240 : Shape := ⟨2, ![1, 10240]⟩
abbrev S256x2560 : Shape := ⟨2, ![256, 2560]⟩
abbrev S2560x64 : Shape := ⟨2, ![2560, 64]⟩
abbrev S1x2560 : Shape := ⟨2, ![1, 2560]⟩

abbrev nBuf : Space → Nat
  | .hbm => 105
  | .vmem => 19
  | .smem => 0
  | _ => 0

abbrev bufTy : (tb : Table) → Fin (tcTables nBuf tb) → BufTy
  | .hbm, ⟨0, _⟩ => ⟨S256x10000, .f32⟩
  | .hbm, ⟨1, _⟩ => ⟨S256, .i32⟩
  | .hbm, ⟨2, _⟩ => ⟨S256x1, .i32⟩
  | .hbm, ⟨3, _⟩ => ⟨S200000x64, .f32⟩
  | .hbm, ⟨4, _⟩ => ⟨S64x64, .f32⟩
  | .hbm, ⟨5, _⟩ => ⟨S10000x64, .f32⟩
  | .hbm, ⟨6, _⟩ => ⟨S10000, .f32⟩
  | .hbm, ⟨7, _⟩ => ⟨S400000, .i32⟩
  | .hbm, ⟨8, _⟩ => ⟨S400000, .i32⟩
  | .hbm, ⟨9, _⟩ => ⟨S400000, .f32⟩
  | .hbm, ⟨10, _⟩ => ⟨S1200000, .i32⟩
  | .hbm, ⟨11, _⟩ => ⟨S1200000, .i32⟩
  | .hbm, ⟨12, _⟩ => ⟨S1, .f32⟩
  | .hbm, ⟨13, _⟩ => ⟨S10000x256, .f32⟩
  | .hbm, ⟨14, _⟩ => ⟨S400000x1, .f32⟩
  | .hbm, ⟨15, _⟩ => ⟨S_, .i32⟩
  | .hbm, ⟨16, _⟩ => ⟨S400000, .i32⟩
  | .hbm, ⟨17, _⟩ => ⟨S400000, .i1⟩
  | .hbm, ⟨18, _⟩ => ⟨S_, .i32⟩
  | .hbm, ⟨19, _⟩ => ⟨S400000, .i32⟩
  | .hbm, ⟨20, _⟩ => ⟨S400000, .i32⟩
  | .hbm, ⟨21, _⟩ => ⟨S400000, .i32⟩
  | .hbm, ⟨22, _⟩ => ⟨S400000x1, .i32⟩
  | .hbm, ⟨23, _⟩ => ⟨S400000x256, .f32⟩
  | .hbm, ⟨24, _⟩ => ⟨S400000x256, .f32⟩
  | .hbm, ⟨25, _⟩ => ⟨S400000x256, .f32⟩
  | .hbm, ⟨26, _⟩ => ⟨S_, .f32⟩
  | .hbm, ⟨27, _⟩ => ⟨S20000x256, .f32⟩
  | .hbm, ⟨28, _⟩ => ⟨S400000x1, .i32⟩
  | .hbm, ⟨29, _⟩ => ⟨S20000x256, .f32⟩
  | .hbm, ⟨30, _⟩ => ⟨S400000x1, .f32⟩
  | .hbm, ⟨31, _⟩ => ⟨S_, .i32⟩
  | .hbm, ⟨32, _⟩ => ⟨S400000, .i32⟩
  | .hbm, ⟨33, _⟩ => ⟨S400000, .i1⟩
  | .hbm, ⟨34, _⟩ => ⟨S_, .i32⟩
  | .hbm, ⟨35, _⟩ => ⟨S400000, .i32⟩
  | .hbm, ⟨36, _⟩ => ⟨S400000, .i32⟩
  | .hbm, ⟨37, _⟩ => ⟨S400000, .i32⟩
  | .hbm, ⟨38, _⟩ => ⟨S400000x1, .i32⟩
  | .hbm, ⟨39, _⟩ => ⟨S400000x256, .f32⟩
  | .hbm, ⟨40, _⟩ => ⟨S400000x256, .f32⟩
  | .hbm, ⟨41, _⟩ => ⟨S400000x256, .f32⟩
  | .hbm, ⟨42, _⟩ => ⟨S_, .f32⟩
  | .hbm, ⟨43, _⟩ => ⟨S10000x256, .f32⟩
  | .hbm, ⟨44, _⟩ => ⟨S400000x1, .i32⟩
  | .hbm, ⟨45, _⟩ => ⟨S10000x256, .f32⟩
  | .hbm, ⟨46, _⟩ => ⟨S256x10000, .f32⟩
  | .hbm, ⟨47, _⟩ => ⟨S_, .f32⟩
  | .hbm, ⟨48, _⟩ => ⟨S256x10000, .f32⟩
  | .hbm, ⟨49, _⟩ => ⟨S256x10000, .f32⟩
  | .hbm, ⟨50, _⟩ => ⟨S256x1, .f32⟩
  | .hbm, ⟨51, _⟩ => ⟨S_, .f32⟩
  | .hbm, ⟨52, _⟩ => ⟨S256x1, .f32⟩
  | .hbm, ⟨53, _⟩ => ⟨S256x1, .f32⟩
  | .hbm, ⟨54, _⟩ => ⟨S_, .f32⟩
  | .hbm, ⟨55, _⟩ => ⟨S256x1, .f32⟩
  | .hbm, ⟨56, _⟩ => ⟨S256x1, .f32⟩
  | .hbm, ⟨57, _⟩ => ⟨S_, .i32⟩
  | .hbm, ⟨58, _⟩ => ⟨S1200000, .i32⟩
  | .hbm, ⟨59, _⟩ => ⟨S1200000, .i1⟩
  | .hbm, ⟨60, _⟩ => ⟨S_, .i32⟩
  | .hbm, ⟨61, _⟩ => ⟨S1200000, .i32⟩
  | .hbm, ⟨62, _⟩ => ⟨S1200000, .i32⟩
  | .hbm, ⟨63, _⟩ => ⟨S1200000, .i32⟩
  | .hbm, ⟨64, _⟩ => ⟨S1200000x1, .i32⟩
  | .hbm, ⟨65, _⟩ => ⟨S1200000x64, .f32⟩
  | .hbm, ⟨66, _⟩ => ⟨S_, .i32⟩
  | .hbm, ⟨67, _⟩ => ⟨S1200000, .i32⟩
  | .hbm, ⟨68, _⟩ => ⟨S1200000, .i1⟩
  | .hbm, ⟨69, _⟩ => ⟨S_, .i32⟩
  | .hbm, ⟨70, _⟩ => ⟨S1200000, .i32⟩
  | .hbm, ⟨71, _⟩ => ⟨S1200000, .i32⟩
  | .hbm, ⟨72, _⟩ => ⟨S1200000, .i32⟩
  | .hbm, ⟨73, _⟩ => ⟨S1200000x1, .i32⟩
  | .hbm, ⟨74, _⟩ => ⟨S1200000x64, .f32⟩
  | .hbm, ⟨75, _⟩ => ⟨S1200000x64, .f32⟩
  | .hbm, ⟨76, _⟩ => ⟨S1200000x64, .f32⟩
  | .hbm, ⟨77, _⟩ => ⟨S_, .f32⟩
  | .hbm, ⟨78, _⟩ => ⟨S200000x64, .f32⟩
  | .hbm, ⟨79, _⟩ => ⟨S1200000x1, .i32⟩
  | .hbm, ⟨80, _⟩ => ⟨S200000x64, .f32⟩
  | .hbm, ⟨81, _⟩ => ⟨S_, .i32⟩
  | .hbm, ⟨82, _⟩ => ⟨S256, .i32⟩
  | .hbm, ⟨83, _⟩ => ⟨S256, .i1⟩
  | .hbm, ⟨84, _⟩ => ⟨S_, .i32⟩
  | .hbm, ⟨85, _⟩ => ⟨S256, .i32⟩
  | .hbm, ⟨86, _⟩ => ⟨S256, .i32⟩
  | .hbm, ⟨87, _⟩ => ⟨S256, .i32⟩
  | .hbm, ⟨88, _⟩ => ⟨S256x1, .i32⟩
  | .hbm, ⟨89, _⟩ => ⟨S256x64, .f32⟩
  | .hbm, ⟨90, _⟩ => ⟨S_, .i32⟩
  | .hbm, ⟨91, _⟩ => ⟨S_, .f32⟩
  | .hbm, ⟨92, _⟩ => ⟨S256x10240, .f32⟩
  | .hbm, ⟨93, _⟩ => ⟨S_, .i32⟩
  | .hbm, ⟨94, _⟩ => ⟨S_, .f32⟩
  | .hbm, ⟨95, _⟩ => ⟨S256x10240, .f32⟩
  | .hbm, ⟨96, _⟩ => ⟨S_, .i32⟩
  | .hbm, ⟨97, _⟩ => ⟨S_, .f32⟩
  | .hbm, ⟨98, _⟩ => ⟨S10240x64, .f32⟩
  | .hbm, ⟨99, _⟩ => ⟨S_, .i32⟩
  | .hbm, ⟨100, _⟩ => ⟨S_, .f32⟩
  | .hbm, ⟨101, _⟩ => ⟨S10240, .f32⟩
  | .hbm, ⟨102, _⟩ => ⟨S1x10240, .f32⟩
  | .hbm, ⟨103, _⟩ => ⟨S256x10240, .f32⟩
  | .hbm, ⟨104, _⟩ => ⟨S256x10000, .f32⟩
  | .local _ .vmem, ⟨0, _⟩ => ⟨S12000x64, .f32⟩
  | .local _ .vmem, ⟨1, _⟩ => ⟨S12000x64, .f32⟩
  | .local _ .vmem, ⟨2, _⟩ => ⟨S12000x64, .f32⟩
  | .local _ .vmem, ⟨3, _⟩ => ⟨S12000x64, .f32⟩
  | .local _ .vmem, ⟨4, _⟩ => ⟨S64x64, .f32⟩
  | .local _ .vmem, ⟨5, _⟩ => ⟨S12000x64, .f32⟩
  | .local _ .vmem, ⟨6, _⟩ => ⟨S12000x64, .f32⟩
  | .local _ .vmem, ⟨7, _⟩ => ⟨S256x2560, .f32⟩
  | .local _ .vmem, ⟨8, _⟩ => ⟨S256x2560, .f32⟩
  | .local _ .vmem, ⟨9, _⟩ => ⟨S256x2560, .f32⟩
  | .local _ .vmem, ⟨10, _⟩ => ⟨S256x2560, .f32⟩
  | .local _ .vmem, ⟨11, _⟩ => ⟨S256x1, .f32⟩
  | .local _ .vmem, ⟨12, _⟩ => ⟨S256x64, .f32⟩
  | .local _ .vmem, ⟨13, _⟩ => ⟨S2560x64, .f32⟩
  | .local _ .vmem, ⟨14, _⟩ => ⟨S2560x64, .f32⟩
  | .local _ .vmem, ⟨15, _⟩ => ⟨S1x2560, .f32⟩
  | .local _ .vmem, ⟨16, _⟩ => ⟨S1x2560, .f32⟩
  | .local _ .vmem, ⟨17, _⟩ => ⟨S256x2560, .f32⟩
  | .local _ .vmem, ⟨18, _⟩ => ⟨S256x2560, .f32⟩
  | _, _ => ⟨S256x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_c_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c_1 : Ref sig .tc := ⟨.hbm, 31, rfl⟩
abbrev main_v15 : Ref sig .tc := ⟨.hbm, 32, rfl⟩
abbrev main_v16 : Ref sig .tc := ⟨.hbm, 33, rfl⟩
abbrev main_c_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_v35 : Ref sig .tc := ⟨.hbm, 56, rfl⟩
abbrev main_c_6 : Ref sig .tc := ⟨.hbm, 57, rfl⟩
abbrev main_v36 : Ref sig .tc := ⟨.hbm, 58, rfl⟩
abbrev main_v37 : Ref sig .tc := ⟨.hbm, 59, rfl⟩
abbrev main_c_7 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_c_8 : Ref sig .tc := ⟨.hbm, 66, rfl⟩
abbrev main_v43 : Ref sig .tc := ⟨.hbm, 67, rfl⟩
abbrev main_v44 : Ref sig .tc := ⟨.hbm, 68, rfl⟩
abbrev main_c_9 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_10 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_c_11 : Ref sig .tc := ⟨.hbm, 81, rfl⟩
abbrev main_v55 : Ref sig .tc := ⟨.hbm, 82, rfl⟩
abbrev main_v56 : Ref sig .tc := ⟨.hbm, 83, rfl⟩
abbrev main_c_12 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_c_13 : Ref sig .tc := ⟨.hbm, 90, rfl⟩
abbrev main_call0_v0 : Ref sig .tc := ⟨.hbm, 91, rfl⟩
abbrev main_v62 : Ref sig .tc := ⟨.hbm, 92, rfl⟩
abbrev main_c_14 : Ref sig .tc := ⟨.hbm, 93, rfl⟩
abbrev main_call1_v0 : Ref sig .tc := ⟨.hbm, 94, rfl⟩
abbrev main_v63 : Ref sig .tc := ⟨.hbm, 95, rfl⟩
abbrev main_c_15 : Ref sig .tc := ⟨.hbm, 96, rfl⟩
abbrev main_call2_v0 : Ref sig .tc := ⟨.hbm, 97, rfl⟩
abbrev main_v64 : Ref sig .tc := ⟨.hbm, 98, rfl⟩
abbrev main_c_16 : Ref sig .tc := ⟨.hbm, 99, rfl⟩
abbrev main_call3_v0 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc1_sem6_1 : DmaSem sig := 18

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S12000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S12000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S12000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S256x2560 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2560 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2560x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x2560 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x2560 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  transposes_S256x10000_S10000x256_1_0 : S256x10000.Transposes [1, 0] S10000x256
  bcast_S400000_S400000x1_0 : S400000.BroadcastsInDim S400000x1 (![0] : Fin 1 → Fin S400000x1.rank)
  bcast_S_S400000 : S_.BroadcastsInDim S400000 (![] : Fin 0 → Fin S400000.rank)
  bcast_S400000x1_S400000x256_0_1 : S400000x1.BroadcastsInDim S400000x256 (![0, 1] : Fin 2 → Fin S400000x256.rank)
  bcast_S_S20000x256 : S_.BroadcastsInDim S20000x256 (![] : Fin 0 → Fin S20000x256.rank)
  bcast_S_S10000x256 : S_.BroadcastsInDim S10000x256 (![] : Fin 0 → Fin S10000x256.rank)
  transposes_S10000x256_S256x10000_1_0 : S10000x256.Transposes [1, 0] S256x10000
  shapeCasts_S1_S_ : S1.ShapeCasts S_
  bcast_S_S256x10000 : S_.BroadcastsInDim S256x10000 (![] : Fin 0 → Fin S256x10000.rank)
  bcast_S_S256x1 : S_.BroadcastsInDim S256x1 (![] : Fin 0 → Fin S256x1.rank)
  bcast_S_S1200000 : S_.BroadcastsInDim S1200000 (![] : Fin 0 → Fin S1200000.rank)
  bcast_S1200000_S1200000x1_0 : S1200000.BroadcastsInDim S1200000x1 (![0] : Fin 1 → Fin S1200000x1.rank)
  inb_S12000x64_S12000x64_0_0 : ∀ a, (![0, 0] : Fin 2 → Nat) a + S12000x64.size a ≤ S12000x64.size a
  h_S12000x64 : 0 < S12000x64.numel
  shapeCasts_S12000x64_S12000x64 : S12000x64.ShapeCasts S12000x64
  inb_S64x64_S64x64_0_0 : ∀ a, (![0, 0] : Fin 2 → Nat) a + S64x64.size a ≤ S64x64.size a
  h_S64x64 : 0 < S64x64.numel
  bitsLt_bf16_f32 : FTy.bits .bf16 < FTy.bits .f32
  bcast_S_S200000x64 : S_.BroadcastsInDim S200000x64 (![] : Fin 0 → Fin S200000x64.rank)
  bcast_S_S256 : S_.BroadcastsInDim S256 (![] : Fin 0 → Fin S256.rank)
  bcast_S256_S256x1_0 : S256.BroadcastsInDim S256x1 (![0] : Fin 1 → Fin S256x1.rank)
  pads_S256x10000_S256x10240_000_02400 : S256x10000.Pads (![0, 0] : Fin 2 → Nat) ![0, 240] ![0, 0] S256x10240
  h_S_ : 0 < S_.numel
  pads_S10000x64_S10240x64_02400_000 : S10000x64.Pads (![0, 0] : Fin 2 → Nat) ![240, 0] ![0, 0] S10240x64
  pads_S10000_S10240_02400 : S10000.Pads (![0] : Fin 1 → Nat) ![240] ![0] S10240
  shapeCasts_S10240_S1x10240 : S10240.ShapeCasts S1x10240
  inb_S256x2560_S256x2560_0_0 : ∀ a, (![0, 0] : Fin 2 → Nat) a + S256x2560.size a ≤ S256x2560.size a
  h_S256x2560 : 0 < S256x2560.numel
  shapeCasts_S256x2560_S256x2560 : S256x2560.ShapeCasts S256x2560
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x2560 : S256x1.Broadcasts S256x2560
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S2560x64_S2560x64_0_0 : ∀ a, (![0, 0] : Fin 2 → Nat) a + S2560x64.size a ≤ S2560x64.size a
  h_S2560x64 : 0 < S2560x64.numel
  shapeCasts_S2560x64_S2560x64 : S2560x64.ShapeCasts S2560x64
  inb_S1x2560_S1x2560_0_0 : ∀ a, (![0, 0] : Fin 2 → Nat) a + S1x2560.size a ≤ S1x2560.size a
  h_S1x2560 : 0 < S1x2560.numel
  shapeCasts_S1x2560_S1x2560 : S1x2560.ShapeCasts S1x2560
  broadcasts_S1x2560_S256x2560 : S1x2560.Broadcasts S256x2560
  slices_S256x10240_S256x10000_0_0 : S256x10240.Slices ![0, 0] S256x10000
  gather_S10000x256_S400000x1_S400000x256_1_0_n_n_0_1_1256_wf : GatherDims.WF S10000x256 S400000x1 S400000x256 [1] [0] [] [0] [] 1 ![1, 256]
  scatter_S20000x256_S400000x1_S400000x256_1_0_0_1_wf : ScatterDims.WF S20000x256 S400000x1 S400000x256 [1] [0] [0] 1
  gather_S20000x256_S400000x1_S400000x256_1_0_n_n_0_1_1256_wf : GatherDims.WF S20000x256 S400000x1 S400000x256 [1] [0] [] [0] [] 1 ![1, 256]
  scatter_S10000x256_S400000x1_S400000x256_1_0_0_1_wf : ScatterDims.WF S10000x256 S400000x1 S400000x256 [1] [0] [0] 1
  gather_S200000x64_S1200000x1_S1200000x64_1_0_n_n_0_1_164_wf : GatherDims.WF S200000x64 S1200000x1 S1200000x64 [1] [0] [] [0] [] 1 ![1, 64]
  dot_S12000x64_S64x64_S12000x64_1_0_0_1_n_n_wf : DotDims.WF S12000x64 S64x64 S12000x64 [1] [0] [0] [1] [] []
  scatter_S200000x64_S1200000x1_S1200000x64_1_0_0_1_wf : ScatterDims.WF S200000x64 S1200000x1 S1200000x64 [1] [0] [0] 1
  gather_S200000x64_S256x1_S256x64_1_0_n_n_0_1_164_wf : GatherDims.WF S200000x64 S256x1 S256x64 [1] [0] [] [0] [] 1 ![1, 64]
  dot_S256x64_S2560x64_S256x2560_1_1_0_0_n_n_wf : DotDims.WF S256x64 S2560x64 S256x2560 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12000x64.size a ≤ S1200000x64.size a
  hwx0_0 : ∀ i : grid0.Coords, EltTy.bits .f32 = 32 ∨ (Rect.block (s := S1200000x64) S12000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S12000x64.size a ≤ S1200000x64.size a
  hwx0_1 : ∀ i : grid0.Coords, EltTy.bits .f32 = 32 ∨ (Rect.block (s := S1200000x64) S12000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S12000x64.size a ≤ S1200000x64.size a
  hwx0_3 : ∀ i : grid0.Coords, EltTy.bits .f32 = 32 ∨ (Rect.block (s := S1200000x64) S12000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2560.size a ≤ S256x10240.size a
  hwx1_0 : ∀ i : grid1.Coords, EltTy.bits .f32 = 32 ∨ (Rect.block (s := S256x10240) S256x2560.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x2560.size a ≤ S256x10240.size a
  hwx1_1 : ∀ i : grid1.Coords, EltTy.bits .f32 = 32 ∨ (Rect.block (s := S256x10240) S256x2560.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x1.size a ≤ S256x1.size a
  hwx1_2 : ∀ i : grid1.Coords, EltTy.bits .f32 = 32 ∨ (Rect.block (s := S256x1) S256x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x64.size a ≤ S256x64.size a
  hwx1_3 : ∀ i : grid1.Coords, EltTy.bits .f32 = 32 ∨ (Rect.block (s := S256x64) S256x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2560x64.size a ≤ S10240x64.size a
  hwx1_4 : ∀ i : grid1.Coords, EltTy.bits .f32 = 32 ∨ (Rect.block (s := S10240x64) S2560x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x2560.size a ≤ S1x10240.size a
  hwx1_5 : ∀ i : grid1.Coords, EltTy.bits .f32 = 32 ∨ (Rect.block (s := S1x10240) S1x2560.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S256x2560.size a ≤ S256x10240.size a
  hwx1_6 : ∀ i : grid1.Coords, EltTy.bits .f32 = 32 ∨ (Rect.block (s := S256x10240) S256x2560.size (cc1_transform_6 i) (hinb1_6 i)).WholeWords (EltTy.packing .f32)

variable [Facts₀]

def gather_S10000x256_S400000x1_S400000x256_1_0_n_n_0_1_1256 : GatherDims S10000x256 S400000x1 S400000x256 where
  offsetDims := [1]
  collapsedSliceDims := [0]
  operandBatchingDims := []
  startIndicesBatchingDims := []
  startIndexMap := [0]
  indexVectorDim := 1
  sliceSizes := ![1, 256]
  wf := gather_S10000x256_S400000x1_S400000x256_1_0_n_n_0_1_1256_wf
def scatter_S20000x256_S400000x1_S400000x256_1_0_0_1 : ScatterDims S20000x256 S400000x1 S400000x256 where
  updateWindowDims := [1]
  insertedWindowDims := [0]
  scatterDimsToOperandDims := [0]
  indexVectorDim := 1
  wf := scatter_S20000x256_S400000x1_S400000x256_1_0_0_1_wf
def gather_S20000x256_S400000x1_S400000x256_1_0_n_n_0_1_1256 : GatherDims S20000x256 S400000x1 S400000x256 where
  offsetDims := [1]
  collapsedSliceDims := [0]
  operandBatchingDims := []
  startIndicesBatchingDims := []
  startIndexMap := [0]
  indexVectorDim := 1
  sliceSizes := ![1, 256]
  wf := gather_S20000x256_S400000x1_S400000x256_1_0_n_n_0_1_1256_wf
def scatter_S10000x256_S400000x1_S400000x256_1_0_0_1 : ScatterDims S10000x256 S400000x1 S400000x256 where
  updateWindowDims := [1]
  insertedWindowDims := [0]
  scatterDimsToOperandDims := [0]
  indexVectorDim := 1
  wf := scatter_S10000x256_S400000x1_S400000x256_1_0_0_1_wf
def gather_S200000x64_S1200000x1_S1200000x64_1_0_n_n_0_1_164 : GatherDims S200000x64 S1200000x1 S1200000x64 where
  offsetDims := [1]
  collapsedSliceDims := [0]
  operandBatchingDims := []
  startIndicesBatchingDims := []
  startIndexMap := [0]
  indexVectorDim := 1
  sliceSizes := ![1, 64]
  wf := gather_S200000x64_S1200000x1_S1200000x64_1_0_n_n_0_1_164_wf
def dot_S12000x64_S64x64_S12000x64_1_0_0_1_n_n : DotDims S12000x64 S64x64 S12000x64 where
  lhsContracting := [1]
  rhsContracting := [0]
  lhsNonContracting := [0]
  rhsNonContracting := [1]
  lhsBatch := []
  rhsBatch := []
  wf := dot_S12000x64_S64x64_S12000x64_1_0_0_1_n_n_wf
def scatter_S200000x64_S1200000x1_S1200000x64_1_0_0_1 : ScatterDims S200000x64 S1200000x1 S1200000x64 where
  updateWindowDims := [1]
  insertedWindowDims := [0]
  scatterDimsToOperandDims := [0]
  indexVectorDim := 1
  wf := scatter_S200000x64_S1200000x1_S1200000x64_1_0_0_1_wf
def gather_S200000x64_S256x1_S256x64_1_0_n_n_0_1_164 : GatherDims S200000x64 S256x1 S256x64 where
  offsetDims := [1]
  collapsedSliceDims := [0]
  operandBatchingDims := []
  startIndicesBatchingDims := []
  startIndexMap := [0]
  indexVectorDim := 1
  sliceSizes := ![1, 64]
  wf := gather_S200000x64_S256x1_S256x64_1_0_n_n_0_1_164_wf
def dot_S256x64_S2560x64_S256x2560_1_1_0_0_n_n : DotDims S256x64 S2560x64 S256x2560 where
  lhsContracting := [1]
  rhsContracting := [1]
  lhsNonContracting := [0]
  rhsNonContracting := [0]
  lhsBatch := []
  rhsBatch := []
  wf := dot_S256x64_S2560x64_S256x2560_1_1_0_0_n_n_wf

abbrev win0_0 : Pipeline.Window sig grid0 :=
  Pipeline.Window.ofSpec (Memref.whole main_v50) S12000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v42) S12000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v51) S12000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v62) S256x2560.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v63) S256x2560.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v35) S256x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v61) S256x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v64) S2560x64.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v66) S1x2560.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v67) S256x2560.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S256x10000 : Shape := ⟨2, ![256, 10000]⟩
abbrev S256 : Shape := ⟨1, ![256]⟩
abbrev S256x1 : Shape := ⟨2, ![256, 1]⟩
abbrev S200000x64 : Shape := ⟨2, ![200000, 64]⟩
abbrev S64x64 : Shape := ⟨2, ![64, 64]⟩
abbrev S10000x64 : Shape := ⟨2, ![10000, 64]⟩
abbrev S10000 : Shape := ⟨1, ![10000]⟩
abbrev S400000 : Shape := ⟨1, ![400000]⟩
abbrev S1200000 : Shape := ⟨1, ![1200000]⟩
abbrev S1 : Shape := ⟨1, ![1]⟩
abbrev S10000x256 : Shape := ⟨2, ![10000, 256]⟩
abbrev S400000x1 : Shape := ⟨2, ![400000, 1]⟩
abbrev S_ : Shape := ⟨0, ![]⟩
abbrev S400000x256 : Shape := ⟨2, ![400000, 256]⟩
abbrev S20000x256 : Shape := ⟨2, ![20000, 256]⟩
abbrev S1200000x1 : Shape := ⟨2, ![1200000, 1]⟩
abbrev S1200000x64 : Shape := ⟨2, ![1200000, 64]⟩
abbrev S256x64 : Shape := ⟨2, ![256, 64]⟩
abbrev S64x10000 : Shape := ⟨2, ![64, 10000]⟩
abbrev S1x10000 : Shape := ⟨2, ![1, 10000]⟩

abbrev nBuf : Space → Nat
  | .hbm => 102
  | .vmem => 0
  | .smem => 0
  | _ => 0

abbrev bufTy : (tb : Table) → Fin (tcTables nBuf tb) → BufTy
  | .hbm, ⟨0, _⟩ => ⟨S256x10000, .f32⟩
  | .hbm, ⟨1, _⟩ => ⟨S256, .i32⟩
  | .hbm, ⟨2, _⟩ => ⟨S256x1, .i32⟩
  | .hbm, ⟨3, _⟩ => ⟨S200000x64, .f32⟩
  | .hbm, ⟨4, _⟩ => ⟨S64x64, .f32⟩
  | .hbm, ⟨5, _⟩ => ⟨S10000x64, .f32⟩
  | .hbm, ⟨6, _⟩ => ⟨S10000, .f32⟩
  | .hbm, ⟨7, _⟩ => ⟨S400000, .i32⟩
  | .hbm, ⟨8, _⟩ => ⟨S400000, .i32⟩
  | .hbm, ⟨9, _⟩ => ⟨S400000, .f32⟩
  | .hbm, ⟨10, _⟩ => ⟨S1200000, .i32⟩
  | .hbm, ⟨11, _⟩ => ⟨S1200000, .i32⟩
  | .hbm, ⟨12, _⟩ => ⟨S1, .f32⟩
  | .hbm, ⟨13, _⟩ => ⟨S10000x256, .f32⟩
  | .hbm, ⟨14, _⟩ => ⟨S400000x1, .f32⟩
  | .hbm, ⟨15, _⟩ => ⟨S_, .i32⟩
  | .hbm, ⟨16, _⟩ => ⟨S400000, .i32⟩
  | .hbm, ⟨17, _⟩ => ⟨S400000, .i1⟩
  | .hbm, ⟨18, _⟩ => ⟨S_, .i32⟩
  | .hbm, ⟨19, _⟩ => ⟨S400000, .i32⟩
  | .hbm, ⟨20, _⟩ => ⟨S400000, .i32⟩
  | .hbm, ⟨21, _⟩ => ⟨S400000, .i32⟩
  | .hbm, ⟨22, _⟩ => ⟨S400000x1, .i32⟩
  | .hbm, ⟨23, _⟩ => ⟨S400000x256, .f32⟩
  | .hbm, ⟨24, _⟩ => ⟨S400000x256, .f32⟩
  | .hbm, ⟨25, _⟩ => ⟨S400000x256, .f32⟩
  | .hbm, ⟨26, _⟩ => ⟨S_, .f32⟩
  | .hbm, ⟨27, _⟩ => ⟨S20000x256, .f32⟩
  | .hbm, ⟨28, _⟩ => ⟨S400000x1, .i32⟩
  | .hbm, ⟨29, _⟩ => ⟨S20000x256, .f32⟩
  | .hbm, ⟨30, _⟩ => ⟨S400000x1, .f32⟩
  | .hbm, ⟨31, _⟩ => ⟨S_, .i32⟩
  | .hbm, ⟨32, _⟩ => ⟨S400000, .i32⟩
  | .hbm, ⟨33, _⟩ => ⟨S400000, .i1⟩
  | .hbm, ⟨34, _⟩ => ⟨S_, .i32⟩
  | .hbm, ⟨35, _⟩ => ⟨S400000, .i32⟩
  | .hbm, ⟨36, _⟩ => ⟨S400000, .i32⟩
  | .hbm, ⟨37, _⟩ => ⟨S400000, .i32⟩
  | .hbm, ⟨38, _⟩ => ⟨S400000x1, .i32⟩
  | .hbm, ⟨39, _⟩ => ⟨S400000x256, .f32⟩
  | .hbm, ⟨40, _⟩ => ⟨S400000x256, .f32⟩
  | .hbm, ⟨41, _⟩ => ⟨S400000x256, .f32⟩
  | .hbm, ⟨42, _⟩ => ⟨S_, .f32⟩
  | .hbm, ⟨43, _⟩ => ⟨S10000x256, .f32⟩
  | .hbm, ⟨44, _⟩ => ⟨S400000x1, .i32⟩
  | .hbm, ⟨45, _⟩ => ⟨S10000x256, .f32⟩
  | .hbm, ⟨46, _⟩ => ⟨S256x10000, .f32⟩
  | .hbm, ⟨47, _⟩ => ⟨S_, .f32⟩
  | .hbm, ⟨48, _⟩ => ⟨S256x10000, .f32⟩
  | .hbm, ⟨49, _⟩ => ⟨S256x10000, .f32⟩
  | .hbm, ⟨50, _⟩ => ⟨S256x1, .f32⟩
  | .hbm, ⟨51, _⟩ => ⟨S_, .f32⟩
  | .hbm, ⟨52, _⟩ => ⟨S256x1, .f32⟩
  | .hbm, ⟨53, _⟩ => ⟨S256x1, .f32⟩
  | .hbm, ⟨54, _⟩ => ⟨S_, .f32⟩
  | .hbm, ⟨55, _⟩ => ⟨S256x1, .f32⟩
  | .hbm, ⟨56, _⟩ => ⟨S256x1, .f32⟩
  | .hbm, ⟨57, _⟩ => ⟨S256x10000, .f32⟩
  | .hbm, ⟨58, _⟩ => ⟨S256x10000, .f32⟩
  | .hbm, ⟨59, _⟩ => ⟨S256x10000, .f32⟩
  | .hbm, ⟨60, _⟩ => ⟨S256x10000, .f32⟩
  | .hbm, ⟨61, _⟩ => ⟨S_, .i32⟩
  | .hbm, ⟨62, _⟩ => ⟨S1200000, .i32⟩
  | .hbm, ⟨63, _⟩ => ⟨S1200000, .i1⟩
  | .hbm, ⟨64, _⟩ => ⟨S_, .i32⟩
  | .hbm, ⟨65, _⟩ => ⟨S1200000, .i32⟩
  | .hbm, ⟨66, _⟩ => ⟨S1200000, .i32⟩
  | .hbm, ⟨67, _⟩ => ⟨S1200000, .i32⟩
  | .hbm, ⟨68, _⟩ => ⟨S1200000x1, .i32⟩
  | .hbm, ⟨69, _⟩ => ⟨S1200000x64, .f32⟩
  | .hbm, ⟨70, _⟩ => ⟨S_, .i32⟩
  | .hbm, ⟨71, _⟩ => ⟨S1200000, .i32⟩
  | .hbm, ⟨72, _⟩ => ⟨S1200000, .i1⟩
  | .hbm, ⟨73, _⟩ => ⟨S_, .i32⟩
  | .hbm, ⟨74, _⟩ => ⟨S1200000, .i32⟩
  | .hbm, ⟨75, _⟩ => ⟨S1200000, .i32⟩
  | .hbm, ⟨76, _⟩ => ⟨S1200000, .i32⟩
  | .hbm, ⟨77, _⟩ => ⟨S1200000x1, .i32⟩
  | .hbm, ⟨78, _⟩ => ⟨S1200000x64, .f32⟩
  | .hbm, ⟨79, _⟩ => ⟨S1200000x64, .f32⟩
  | .hbm, ⟨80, _⟩ => ⟨S1200000x64, .f32⟩
  | .hbm, ⟨81, _⟩ => ⟨S1200000x64, .f32⟩
  | .hbm, ⟨82, _⟩ => ⟨S1200000x64, .f32⟩
  | .hbm, ⟨83, _⟩ => ⟨S_, .f32⟩
  | .hbm, ⟨84, _⟩ => ⟨S200000x64, .f32⟩
  | .hbm, ⟨85, _⟩ => ⟨S1200000x1, .i32⟩
  | .hbm, ⟨86, _⟩ => ⟨S200000x64, .f32⟩
  | .hbm, ⟨87, _⟩ => ⟨S_, .i32⟩
  | .hbm, ⟨88, _⟩ => ⟨S256, .i32⟩
  | .hbm, ⟨89, _⟩ => ⟨S256, .i1⟩
  | .hbm, ⟨90, _⟩ => ⟨S_, .i32⟩
  | .hbm, ⟨91, _⟩ => ⟨S256, .i32⟩
  | .hbm, ⟨92, _⟩ => ⟨S256, .i32⟩
  | .hbm, ⟨93, _⟩ => ⟨S256, .i32⟩
  | .hbm, ⟨94, _⟩ => ⟨S256x1, .i32⟩
  | .hbm, ⟨95, _⟩ => ⟨S256x64, .f32⟩
  | .hbm, ⟨96, _⟩ => ⟨S64x10000, .f32⟩
  | .hbm, ⟨97, _⟩ => ⟨S256x10000, .f32⟩
  | .hbm, ⟨98, _⟩ => ⟨S1x10000, .f32⟩
  | .hbm, ⟨99, _⟩ => ⟨S256x10000, .f32⟩
  | .hbm, ⟨100, _⟩ => ⟨S256x10000, .f32⟩
  | .hbm, ⟨101, _⟩ => ⟨S256x10000, .f32⟩
  | _, _ => ⟨S256x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_c_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c_1 : Ref sig .tc := ⟨.hbm, 31, rfl⟩
abbrev main_v15 : Ref sig .tc := ⟨.hbm, 32, rfl⟩
abbrev main_v16 : Ref sig .tc := ⟨.hbm, 33, rfl⟩
abbrev main_c_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_6 : Ref sig .tc := ⟨.hbm, 61, rfl⟩
abbrev main_v40 : Ref sig .tc := ⟨.hbm, 62, rfl⟩
abbrev main_v41 : Ref sig .tc := ⟨.hbm, 63, rfl⟩
abbrev main_c_7 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_8 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_10 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_c_11 : Ref sig .tc := ⟨.hbm, 87, rfl⟩
abbrev main_v61 : Ref sig .tc := ⟨.hbm, 88, rfl⟩
abbrev main_v62 : Ref sig .tc := ⟨.hbm, 89, rfl⟩
abbrev main_c_12 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩

abbrev nD : Nat := 1
abbrev τ : Topo := Topo.v7x

variable {F : FTy → Type} [FloatOps F]

class Facts₀ : Prop where
  transposes_S256x10000_S10000x256_1_0 : S256x10000.Transposes [1, 0] S10000x256
  bcast_S400000_S400000x1_0 : S400000.BroadcastsInDim S400000x1 (![0] : Fin 1 → Fin S400000x1.rank)
  bcast_S_S400000 : S_.BroadcastsInDim S400000 (![] : Fin 0 → Fin S400000.rank)
  bcast_S400000x1_S400000x256_0_1 : S400000x1.BroadcastsInDim S400000x256 (![0, 1] : Fin 2 → Fin S400000x256.rank)
  bcast_S_S20000x256 : S_.BroadcastsInDim S20000x256 (![] : Fin 0 → Fin S20000x256.rank)
  bcast_S_S10000x256 : S_.BroadcastsInDim S10000x256 (![] : Fin 0 → Fin S10000x256.rank)
  transposes_S10000x256_S256x10000_1_0 : S10000x256.Transposes [1, 0] S256x10000
  shapeCasts_S1_S_ : S1.ShapeCasts S_
  bcast_S_S256x10000 : S_.BroadcastsInDim S256x10000 (![] : Fin 0 → Fin S256x10000.rank)
  bcast_S_S256x1 : S_.BroadcastsInDim S256x1 (![] : Fin 0 → Fin S256x1.rank)
  bcast_S256x1_S256x10000_0_1 : S256x1.BroadcastsInDim S256x10000 (![0, 1] : Fin 2 → Fin S256x10000.rank)
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S200000x64 : S_.BroadcastsInDim S200000x64 (![] : Fin 0 → Fin S200000x64.rank)
  bcast_S_S256 : S_.BroadcastsInDim S256 (![] : Fin 0 → Fin S256.rank)
  bcast_S256_S256x1_0 : S256.BroadcastsInDim S256x1 (![0] : Fin 1 → Fin S256x1.rank)
  transposes_S10000x64_S64x10000_1_0 : S10000x64.Transposes [1, 0] S64x10000
  bcast_S10000_S1x10000_1 : S10000.BroadcastsInDim S1x10000 (![1] : Fin 1 → Fin S1x10000.rank)
  bcast_S1x10000_S256x10000_0_1 : S1x10000.BroadcastsInDim S256x10000 (![0, 1] : Fin 2 → Fin S256x10000.rank)
  gather_S10000x256_S400000x1_S400000x256_1_0_n_n_0_1_1256_wf : GatherDims.WF S10000x256 S400000x1 S400000x256 [1] [0] [] [0] [] 1 ![1, 256]
  scatter_S20000x256_S400000x1_S400000x256_1_0_0_1_wf : ScatterDims.WF S20000x256 S400000x1 S400000x256 [1] [0] [0] 1
  gather_S20000x256_S400000x1_S400000x256_1_0_n_n_0_1_1256_wf : GatherDims.WF S20000x256 S400000x1 S400000x256 [1] [0] [] [0] [] 1 ![1, 256]
  scatter_S10000x256_S400000x1_S400000x256_1_0_0_1_wf : ScatterDims.WF S10000x256 S400000x1 S400000x256 [1] [0] [0] 1
  gather_S200000x64_S1200000x1_S1200000x64_1_0_n_n_0_1_164_wf : GatherDims.WF S200000x64 S1200000x1 S1200000x64 [1] [0] [] [0] [] 1 ![1, 64]
  dot_S1200000x64_S64x64_S1200000x64_1_0_0_1_n_n_wf : DotDims.WF S1200000x64 S64x64 S1200000x64 [1] [0] [0] [1] [] []
  scatter_S200000x64_S1200000x1_S1200000x64_1_0_0_1_wf : ScatterDims.WF S200000x64 S1200000x1 S1200000x64 [1] [0] [0] 1
  gather_S200000x64_S256x1_S256x64_1_0_n_n_0_1_164_wf : GatherDims.WF S200000x64 S256x1 S256x64 [1] [0] [] [0] [] 1 ![1, 64]
  dot_S256x64_S64x10000_S256x10000_1_0_0_1_n_n_wf : DotDims.WF S256x64 S64x10000 S256x10000 [1] [0] [0] [1] [] []

variable [Facts₀]

def gather_S10000x256_S400000x1_S400000x256_1_0_n_n_0_1_1256 : GatherDims S10000x256 S400000x1 S400000x256 where
  offsetDims := [1]
  collapsedSliceDims := [0]
  operandBatchingDims := []
  startIndicesBatchingDims := []
  startIndexMap := [0]
  indexVectorDim := 1
  sliceSizes := ![1, 256]
  wf := gather_S10000x256_S400000x1_S400000x256_1_0_n_n_0_1_1256_wf
def scatter_S20000x256_S400000x1_S400000x256_1_0_0_1 : ScatterDims S20000x256 S400000x1 S400000x256 where
  updateWindowDims := [1]
  insertedWindowDims := [0]
  scatterDimsToOperandDims := [0]
  indexVectorDim := 1
  wf := scatter_S20000x256_S400000x1_S400000x256_1_0_0_1_wf
def gather_S20000x256_S400000x1_S400000x256_1_0_n_n_0_1_1256 : GatherDims S20000x256 S400000x1 S400000x256 where
  offsetDims := [1]
  collapsedSliceDims := [0]
  operandBatchingDims := []
  startIndicesBatchingDims := []
  startIndexMap := [0]
  indexVectorDim := 1
  sliceSizes := ![1, 256]
  wf := gather_S20000x256_S400000x1_S400000x256_1_0_n_n_0_1_1256_wf
def scatter_S10000x256_S400000x1_S400000x256_1_0_0_1 : ScatterDims S10000x256 S400000x1 S400000x256 where
  updateWindowDims := [1]
  insertedWindowDims := [0]
  scatterDimsToOperandDims := [0]
  indexVectorDim := 1
  wf := scatter_S10000x256_S400000x1_S400000x256_1_0_0_1_wf
def gather_S200000x64_S1200000x1_S1200000x64_1_0_n_n_0_1_164 : GatherDims S200000x64 S1200000x1 S1200000x64 where
  offsetDims := [1]
  collapsedSliceDims := [0]
  operandBatchingDims := []
  startIndicesBatchingDims := []
  startIndexMap := [0]
  indexVectorDim := 1
  sliceSizes := ![1, 64]
  wf := gather_S200000x64_S1200000x1_S1200000x64_1_0_n_n_0_1_164_wf
def dot_S1200000x64_S64x64_S1200000x64_1_0_0_1_n_n : DotDims S1200000x64 S64x64 S1200000x64 where
  lhsContracting := [1]
  rhsContracting := [0]
  lhsNonContracting := [0]
  rhsNonContracting := [1]
  lhsBatch := []
  rhsBatch := []
  wf := dot_S1200000x64_S64x64_S1200000x64_1_0_0_1_n_n_wf
def scatter_S200000x64_S1200000x1_S1200000x64_1_0_0_1 : ScatterDims S200000x64 S1200000x1 S1200000x64 where
  updateWindowDims := [1]
  insertedWindowDims := [0]
  scatterDimsToOperandDims := [0]
  indexVectorDim := 1
  wf := scatter_S200000x64_S1200000x1_S1200000x64_1_0_0_1_wf
def gather_S200000x64_S256x1_S256x64_1_0_n_n_0_1_164 : GatherDims S200000x64 S256x1 S256x64 where
  offsetDims := [1]
  collapsedSliceDims := [0]
  operandBatchingDims := []
  startIndicesBatchingDims := []
  startIndexMap := [0]
  indexVectorDim := 1
  sliceSizes := ![1, 64]
  wf := gather_S200000x64_S256x1_S256x64_1_0_n_n_0_1_164_wf
def dot_S256x64_S64x10000_S256x10000_1_0_0_1_n_n : DotDims S256x64 S64x10000 S256x10000 where
  lhsContracting := [1]
  rhsContracting := [0]
  lhsNonContracting := [0]
  rhsNonContracting := [1]
  lhsBatch := []
  rhsBatch := []
  wf := dot_S256x64_S64x10000_S256x10000_1_0_0_1_n_n_wf

class Facts : Prop extends Facts₀ where

variable [Facts]
-- ==== Proof.KernelRun.lean ====
/-
  The idealized kernel program's run, with the result array named.

  The program is two pipelined regions among stretches of host operations. From any memory, every weakly fair execution
  terminates without a fault, the thirteen argument arrays end as launched, and the result array ends holding what the
  last host stretch leaves of the second region's output — the contents `W13` of the result's buffer at the last
  segment boundary. The argument is the launch over the thirteen segments, each segment's exit state being the next
  one's entry state; the final thread state holds every unscoped buffer at the last boundary's contents, and the
  result's buffer is one of them.
-/
import proofs.«103719_j43241730736177_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result's buffer at the last boundary's contents and the arguments
    as launched. -/
theorem run_result : θ_run defs (onTc (τ := τ) (main (F := F))) ⟨m, fun _ => 0, ρ⟩ (fun r => ∀ c : Dev nD,
      r.2.mem ((c.tc : Thread nD τ).loc main_v68) = W13 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v68 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c)⟩)

end Cert.KernelIdeal.Result

end
-- ==== Proof.Spec.lean ====
/-
  The mathematics both programs compute, entry by entry on the extended reals.

  Every knowledge-graph edge carries a message: the hyperbolic tangent of the edge's difference row projected by the
  velocity matrix, times the destination's row. The result adds three things at entry (p, q): the filtered rating
  x + coef · (ax − x), the inner product of the p-th gathered row with the q-th row of the second weight matrix, and
  the q-th bias.
-/
import Idealize.ShloMosaic.PureOps.Ideal
import Idealize.ShloMosaic.Lib.ValueIdx

noncomputable section

open scoped BigOperators

namespace Cert.Spec

open Idealize.ShloMosaic Idealize.ShloMosaic.ValueIdx

/-- The message of edge `r` at feature `c`: tanh (∑ₖ delta (r, k) · w (k, c)) · xd (r, c). -/
def msgAt {R : Nat} (delta xd : (⟨2, ![R, 64]⟩ : Shape).Idx → EReal) (w : (⟨2, ![64, 64]⟩ : Shape).Idx → EReal)
    (r : Fin R) (c : Fin 64) : EReal :=
  Ideal.tanh (∑ k : Fin 64, delta (ix2 r k) * w (ix2 k c)) * xd (ix2 r c)

/-- All edges' messages as one array. -/
def message {R : Nat} (delta xd : (⟨2, ![R, 64]⟩ : Shape).Idx → EReal) (w : (⟨2, ![64, 64]⟩ : Shape).Idx → EReal) :
    (⟨2, ![R, 64]⟩ : Shape).Idx → EReal :=
  fun j => msgAt delta xd w (j 0) (j 1)

/-- Entry (p, q) of the result, the bias laid out as a 1 × I row, the three summands added left to right:
    ((x + coef · (ax − x)) + ∑ₖ sv (p, k) · w (q, k)) + b (0, q). -/
def outAt {B I : Nat} (x ax : (⟨2, ![B, I]⟩ : Shape).Idx → EReal) (coef : (⟨2, ![B, 1]⟩ : Shape).Idx → EReal)
    (sv : (⟨2, ![B, 64]⟩ : Shape).Idx → EReal) (w : (⟨2, ![I, 64]⟩ : Shape).Idx → EReal)
    (b : (⟨2, ![1, I]⟩ : Shape).Idx → EReal) (p : Fin B) (q : Fin I) : EReal :=
  ((x (ix2 p q) + coef (ix2 p (0 : Fin 1)) * (ax (ix2 p q) - x (ix2 p q))) + ∑ k : Fin 64, sv (ix2 p k) * w (ix2 q k))
    + b (ix2 (0 : Fin 1) q)

/-- The result as one array. -/
def output {B I : Nat} (x ax : (⟨2, ![B, I]⟩ : Shape).Idx → EReal) (coef : (⟨2, ![B, 1]⟩ : Shape).Idx → EReal)
    (sv : (⟨2, ![B, 64]⟩ : Shape).Idx → EReal) (w : (⟨2, ![I, 64]⟩ : Shape).Idx → EReal)
    (b : (⟨2, ![1, I]⟩ : Shape).Idx → EReal) : (⟨2, ![B, I]⟩ : Shape).Idx → EReal :=
  fun j => outAt x ax coef sv w b (j 0) (j 1)

end Cert.Spec

end
-- ==== Proof.LibPlainDot.lean ====
/-
  A plain matrix product read at an entry, for any extents.

  The dimension numbers of a product of an `n` × `K` matrix with a `K` × `M` matrix that contracts the first matrix's
  columns against the second's rows index their sum by the contraction shape's positions. When that shape has the one
  axis of extent `K` and the two operand indices at output entry (p, c) and contraction position `k` are (p, k) and
  (k, c) — four coordinate facts a program's literal dimension numbers decide — the sum is the textbook one,
  `∑ k : Fin K, l (p, k) · r (k, c)`. On the extended reals this reads a vector unit's matrix product into a zero
  accumulator and the host's `dot_general` alike.
-/
import Idealize.ShloMosaic.Lib.ValueIdx
import Idealize.ShloMosaic.PureOps.Ideal.Laws

noncomputable section

open scoped BigOperators

namespace Cert.PlainDot

open Idealize.ShloMosaic Idealize.ShloMosaic.ValueIdx

/-- The contraction's sum, re-indexed by the one contracted coordinate. -/
theorem sum_contr_eq {n K M : Nat} (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (l : (⟨2, ![n, K]⟩ : Shape).Idx → EReal) (r : (⟨2, ![K, M]⟩ : Shape).Idx → EReal) (p : Fin n) (c : Fin M) :
    ∑ q : D.contr.Idx, l (D.lhsIdx (ix2 p c) q) * r (D.rhsIdx (ix2 p c) q) = ∑ k : Fin K, l (ix2 p k) * r (ix2 k c) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact l0 _ _
    | ⟨1, _⟩ => exact (l1 _ _).trans hk)
  have er : D.rhsIdx (ix2 p c) ((contrEquiv1 D K hr hs).symm k) = ix2 k c := funext fun a => Fin.ext (by
    match a with
    | ⟨0, _⟩ => exact (r0 _ _).trans hk
    | ⟨1, _⟩ => exact r1 _ _)
  rw [el, er]

/-- A vector unit's matrix product into the zero accumulator, at entry (p, c): `∑ k, lhs (p, k) · rhs (k, c)`. -/
theorem matmul_zero_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (lhs : FVec Ideal (⟨2, ![n, K]⟩ : Shape) φ₁) (rhs : FVec Ideal (⟨2, ![K, M]⟩ : Shape) φ₂)
    (p : Fin n) (c : Fin M) :
    FloatOps.matmul D prec lhs rhs (constant (⟨2, ![n, M]⟩ : Shape) .f32 0x00000000#32) (ix2 p c)
      = ∑ k : Fin K, (lhs (ix2 p k) : EReal) * (rhs (ix2 k c) : EReal) :=
  (Ideal.matmul_constant_zero_apply D prec lhs rhs (ix2 p c)).trans (sum_contr_eq D hr hs l0 l1 r0 r1 lhs rhs p c)

/-- The host's `dot_general`, at entry (p, c): the same sum. -/
theorem dotGeneral_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (sched : HostSchedule)
    (lhs : FVec Ideal (⟨2, ![n, K]⟩ : Shape) φ₁) (rhs : FVec Ideal (⟨2, ![K, M]⟩ : Shape) φ₂) (p : Fin n) (c : Fin M) :
    FloatOps.dotGeneral D prec sched lhs rhs (ix2 p c) = ∑ k : Fin K, (lhs (ix2 p k) : EReal) * (rhs (ix2 k c) : EReal) :=
  (Ideal.dotGeneral_apply D prec sched lhs rhs (ix2 p c)).trans (sum_contr_eq D hr hs l0 l1 r0 r1 lhs rhs p c)

end Cert.PlainDot

end
-- ==== Proof.MessageBlocks.lean ====
/-
  The first region's output array: every edge's message.

  The region walks the 1,200,000 edges in 100 blocks of 12,000 rows. At each block it multiplies the block of difference
  rows by the whole velocity matrix, takes the hyperbolic tangent and multiplies by the block of destination rows; the
  block it writes back is therefore the restriction of ONE array, `Spec.message`, to the block's rows. The blocks tile
  the edges (row r lies in block r / 12000), so after the region the output array is that array.
-/
import proofs.«103719_j43241730736177_1_alg».proof.Proof.Gen.KernelIdeal.Frame
import proofs.«103719_j43241730736177_1_alg».proof.Proof.Spec
import proofs.«103719_j43241730736177_1_alg».proof.Proof.LibPlainDot
import Idealize.ShloMosaic.Lib.Pipeline.Value
import Idealize.ShloMosaic.Lib.ValueIdx

set_option maxRecDepth 16384

noncomputable section

open scoped BigOperators

namespace Cert.KernelIdeal.EdgeValue

open Cert.KernelIdeal Cert.KernelIdeal.Gen
open Idealize.ShloMosaic Idealize.ShloMosaic.TcCoe Idealize.ShloMosaic.ValueIdx
open Idealize.SL.Sem

/-- The stores' and loads' rectangles start at the origin. -/
theorem origin : (![0, 0] : Fin 2 → Nat) = fun _ => 0 := funext fun a => by fin_cases a <;> rfl

/-- The body's stored value at row `r`, feature `c` of a block: tanh (∑ₖ x0 (r, k) · x2 (k, c)) · x1 (r, c). The
    roundings to the narrow format are the identity on extended reals and the matrix unit's product into the zero
    accumulator is the plain sum. -/
theorem stored_apply (x0 x1 : Vec Ideal S12000x64 .f32) (x2 : Vec Ideal S64x64 .f32) (r : Fin 12000) (c : Fin 64) :
    k0_pay1 (F := Ideal) x0 x1 x2 (ix2 r c)
      = Ideal.tanh (∑ k : Fin 64, (x0 (ix2 r k) : EReal) * (x2 (ix2 k c) : EReal)) * (x1 (ix2 r c) : EReal) := by
  unfold k0_pay1
  rw [shapeCast_self, shapeCast_self]
  refine (mulf_apply _ _ _).trans ?_
  refine congrArg (· * (x1 (ix2 r c) : EReal)) ?_
  show Ideal.tanh _ = _
  refine congrArg Ideal.tanh ?_
  exact Cert.PlainDot.matmul_zero_apply dot_S12000x64_S64x64_S12000x64_1_0_0_1_n_n rfl rfl
    (fun _ _ => rfl) (fun _ _ => rfl) (fun _ _ => rfl) (fun _ _ => rfl) none _ _ r c

variable (V : (c : Dev nD) → (b : Ref sig .tc) → Buf (Elt Ideal) ((c : Thread nD τ).loc b))

/-- The printed index maps, decided over the grid: block `t` of each row-blocked window starts at row block
    `t`, column block 0; the velocity matrix's window is its one block. -/
theorem index_facts : ∀ t : Fin cfg0.N, win0_0.index t (0 : Fin 2) = win0_3.index t (0 : Fin 2)
    ∧ win0_0.index t (1 : Fin 2) = 0
    ∧ win0_1.index t (0 : Fin 2) = win0_3.index t (0 : Fin 2)
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

/-- Row `r` of block `t` is edge 12000 · t + r. -/
def edgeRow (t : Fin cfg0.N) (r : Fin 12000) : Fin 1200000 :=
  ⟨t.val * 12000 + r.val, by have := t.isLt; have hN : cfg0.N = 100 := N_0; have := r.isLt; omega⟩

/-- The difference rows' block at point `t` is rows 12000 · t … of the difference array. -/
theorem delta_block (c : Dev nD) (t : Fin cfg0.N) (r : Fin 12000) (k : Fin 64) :
    (iblk0 V c 0 t : Vec Ideal S12000x64 .f32) (ix2 r k) = (V c main_v50 : S1200000x64.Idx → EReal) (ix2 (edgeRow t r) k) := by
  obtain ⟨e0, e1, e2, e3, e4, e5, e6, e7⟩ := index_facts t
  unfold iblk0
  rw [View.read_apply]
  show V c main_v50 _ = V c main_v50 _
  refine congrArg _ (funext fun a => Fin.ext ?_)
  match a with
  | ⟨0, _⟩ => show win0_0.index t (0 : Fin 2) * 12000 + 1 * r.val = t.val * 12000 + r.val; omega
  | ⟨1, _⟩ => show win0_0.index t (1 : Fin 2) * 64 + 1 * k.val = k.val; omega

/-- The destination rows' block at point `t` is the same rows of the destination array. -/
theorem dest_block (c : Dev nD) (t : Fin cfg0.N) (r : Fin 12000) (k : Fin 64) :
    (iblk0 V c 1 t : Vec Ideal S12000x64 .f32) (ix2 r k) = (V c main_v42 : S1200000x64.Idx → EReal) (ix2 (edgeRow t r) k) := by
  obtain ⟨e0, e1, e2, e3, e4, e5, e6, e7⟩ := index_facts t
  unfold iblk0
  rw [View.read_apply]
  show V c main_v42 _ = V c main_v42 _
  refine congrArg _ (funext fun a => Fin.ext ?_)
  match a with
  | ⟨0, _⟩ => show win0_1.index t (0 : Fin 2) * 12000 + 1 * r.val = t.val * 12000 + r.val; omega
  | ⟨1, _⟩ => show win0_1.index t (1 : Fin 2) * 64 + 1 * k.val = k.val; omega

/-- The velocity matrix's block at every point is the whole matrix. -/
theorem weight_block (c : Dev nD) (t : Fin cfg0.N) (k q : Fin 64) :
    (iblk0 V c 2 t : Vec Ideal S64x64 .f32) (ix2 k q) = (V c main_arg4 : S64x64.Idx → EReal) (ix2 k q) := by
  obtain ⟨e0, e1, e2, e3, e4, e5, e6, e7⟩ := index_facts t
  unfold iblk0
  rw [View.read_apply]
  show V c main_arg4 _ = V c main_arg4 _
  refine congrArg _ (funext fun a => Fin.ext ?_)
  match a with
  | ⟨0, _⟩ => show win0_2.index t (0 : Fin 2) * 64 + 1 * k.val = k.val; omega
  | ⟨1, _⟩ => show win0_2.index t (1 : Fin 2) * 64 + 1 * q.val = q.val; omega

/-- Entry (r, q) of the output's block at point `t` sits at (12000 · t + r, q) of the output array. -/
theorem out_block_index (t : Fin cfg0.N) (r : Fin 12000) (q : Fin 64) :
    ((cfg0.win 3).blk t).view.emb (ix2 r q) = (ix2 (edgeRow t r) q : S1200000x64.Idx) := by
  obtain ⟨e0, e1, e2, e3, e4, e5, e6, e7⟩ := index_facts t
  refine funext fun a => Fin.ext ?_
  match a with
  | ⟨0, _⟩ => show win0_3.index t (0 : Fin 2) * 12000 + 1 * r.val = t.val * 12000 + r.val; omega
  | ⟨1, _⟩ => show win0_3.index t (1 : Fin 2) * 64 + 1 * q.val = q.val; omega

/-- What point `t` writes back is block `t` of the messages of the arrays the region finds. -/
theorem flushed_eq (c : Dev nD) (t : Fin cfg0.N) :
    (dat0 V c).flushed 3 t
      = ((cfg0.win 3).blk t).view.read (Elt Ideal) (Cert.Spec.message (V c main_v50) (V c main_v42) (V c main_arg4)) := by
  show (cfg0.win 3).cut (grid0.coords t) ((dat0 V c).after 3 t) = _
  rw [after0_3]
  unfold out0_3
  rw [View.canon_unit_zero origin]
  simp only [View.ld_unit_zero (S := S12000x64) origin, View.ld_unit_zero (S := S64x64) origin]
  funext j
  obtain ⟨r, q, rfl⟩ : ∃ (r : Fin 12000) (q : Fin 64), j = ix2 r q := ⟨j 0, j 1, eq_ix2 j⟩
  rw [View.read_apply, out_block_index]
  refine (stored_apply _ _ _ r q).trans ?_
  show _ = Cert.Spec.msgAt _ _ _ (edgeRow t r) q
  unfold Cert.Spec.msgAt
  rw [dest_block]
  refine congrArg (fun s => Ideal.tanh s * _) (Finset.sum_congr rfl fun k _ => ?_)
  rw [delta_block, weight_block]

/-- An index of the output array is in point `t`'s block iff each coordinate is in the block's range on its axis. -/
theorem mem_block (t : Fin cfg0.N) (i : S1200000x64.Idx) :
    i ∈ ((cfg0.win 3).blk t).view.set ↔ ∀ a : Fin 2, win0_3.index t a * S12000x64.size a ≤ (i a).val
      ∧ (i a).val < win0_3.index t a * S12000x64.size a + S12000x64.size a := by
  show i ∈ ((View.whole main_v51).slice (win0_3.rect t)).set ↔ _
  rw [View.set_slice_whole, Rect.mem_set_unit]
  exact Iff.rfl

/-- After the region the output array is the messages of the arrays the region found: row r lies in block r / 12000. -/
theorem message_array (c : Dev nD) :
    (dat0 V c).arrAt 3 cfg0.N = Cert.Spec.message (V c main_v50) (V c main_v42) (V c main_arg4) := by
  refine (dat0 V c).arrAt_eq_of_cover 3 _ (fun t _ => flushed_eq V c t) fun i => ?_
  have hN : cfg0.N = 100 := N_0
  have hi0 : (i 0).val < 1200000 := (i 0).isLt
  have hi1 : (i 1).val < 64 := (i 1).isLt
  refine ⟨⟨(i 0).val / 12000, by omega⟩, flush0_3 _, ?_⟩
  rw [mem_block]
  obtain ⟨e0, e1, e2, e3, e4, e5, e6, e7⟩ := index_facts ⟨(i 0).val / 12000, by omega⟩
  intro a
  match a with
  | ⟨0, _⟩ =>
    show win0_3.index _ (0 : Fin 2) * 12000 ≤ (i 0).val ∧ (i 0).val < win0_3.index _ (0 : Fin 2) * 12000 + 12000
    rw [e6]
    show (i 0).val / 12000 * 12000 ≤ (i 0).val ∧ (i 0).val < (i 0).val / 12000 * 12000 + 12000
    omega
  | ⟨1, _⟩ =>
    show win0_3.index _ (1 : Fin 2) * 64 ≤ (i 1).val ∧ (i 1).val < win0_3.index _ (1 : Fin 2) * 64 + 64
    rw [e7]
    omega

end Cert.KernelIdeal.EdgeValue

end
-- ==== Proof.LibDotRows.lean ====
/-
  A reusable general lemma: a matrix product that contracts the COLUMNS of both operands, read at an entry.

  The product of an `n` × `K` matrix `l` with the transpose of an `M` × `K` matrix `r` (`l @ r.T`, a linear layer
  whose weight matrix is stored one row per output feature) pairs row `p` of `l` with row `c` of `r`. Its dimension
  numbers index the sum by the contraction shape's positions; when that shape has the one axis of extent `K` and the
  two operand indices at output entry (p, c) and contraction position `k` are (p, k) and (c, k) — four coordinate
  facts a program's literal dimension numbers decide — the sum is `∑ k : Fin K, l (p, k) · r (c, k)`. On the extended
  reals this reads a vector unit's matrix product into a zero accumulator. Stated at any extents.
-/
import Idealize.ShloMosaic.Lib.ValueIdx
import Idealize.ShloMosaic.PureOps.Ideal.Laws

noncomputable section

open scoped BigOperators

namespace Idealize.ShloMosaic.DotRows

open Idealize.ShloMosaic Idealize.ShloMosaic.ValueIdx

/-- The contraction's sum, re-indexed by the one contracted coordinate. -/
theorem sum_contr_eq {n K M : Nat} (D : DotDims (⟨2, ![n, K]⟩ : Shape) (⟨2, ![M, K]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (i 1).val)
    (r1 : ∀ (i : (⟨2, ![n, M]⟩ : Shape).Idx) (q : D.contr.Idx), (D.rhsIdx i q 1).val = (q ⟨0, by omega⟩).val)
    (l : (⟨2, ![n, K]⟩ : Shape).Idx → EReal) (r : (⟨2, ![M, K]⟩ : Shape).Idx → EReal) (p : Fin n) (c : Fin M) :
    ∑ q : D.contr.Idx, l (D.lhsIdx (ix2 p c) q) * r (D.rhsIdx (ix2 p c) q) = ∑ k : Fin K, l (ix2 p k) * r (ix2 c k) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact l0 _ _
    | ⟨1, _⟩ => exact (l1 _ _).trans hk)
  have er : D.rhsIdx (ix2 p c) ((contrEquiv1 D K hr hs).symm k) = ix2 c k := funext fun a => Fin.ext (by
    match a with
    | ⟨0, _⟩ => exact r0 _ _
    | ⟨1, _⟩ => exact (r1 _ _).trans hk)
  rw [el, er]

/-- A vector unit's matrix product into the zero accumulator, at entry (p, c): `∑ k, lhs (p, k) · rhs (c, k)`. -/
theorem matmul_zero_apply {n K M : Nat} {φ₁ φ₂ : FTy}
    (D : DotDims (⟨2, ![n, K]⟩ : Shape) (⟨2, ![M, K]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (i 1).val)
    (r1 : ∀ (i : (⟨2, ![n, M]⟩ : Shape).Idx) (q : D.contr.Idx), (D.rhsIdx i q 1).val = (q ⟨0, by omega⟩).val)
    (prec : Option ContractPrecision) (lhs : FVec Ideal (⟨2, ![n, K]⟩ : Shape) φ₁) (rhs : FVec Ideal (⟨2, ![M, K]⟩ : Shape) φ₂)
    (p : Fin n) (c : Fin M) :
    FloatOps.matmul D prec lhs rhs (constant (⟨2, ![n, M]⟩ : Shape) .f32 0x00000000#32) (ix2 p c)
      = ∑ k : Fin K, (lhs (ix2 p k) : EReal) * (rhs (ix2 c k) : EReal) :=
  (Ideal.matmul_constant_zero_apply D prec lhs rhs (ix2 p c)).trans (sum_contr_eq D hr hs l0 l1 r0 r1 lhs rhs p c)

end Idealize.ShloMosaic.DotRows

end
-- ==== Proof.LibColumns.lean ====
/-
  Three ways a column of numbers meets a matrix, read at an index, and a row sum — general in the extents.

  A vector of `a` numbers recast as an `a × 1` column reads, at `(p, 0)`, entry `p`; an `a × 1` column spread over `b`
  columns reads, at `(p, c)`, the column's entry `p`; and the sum of a matrix over its second axis, over the extended
  reals, reads at `p` the sum over `k` of the entries `(p, k)`. (The transposed column `a × 1 → 1 × a` and the row spread
  over many rows are already in the library.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibColumns

open Idealize.ShloMosaic Idealize.ShloMosaic.ValueIdx

variable {α : Type}

/-- A vector of `a` entries cast to an `a × 1` column reads, at `(p, z)`, the vector's entry `p`. -/
theorem shapeCast_a_a1_apply {a : ℕ} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) := by
  refine shapeCast_apply x h (ix2 p z) (ix1 p) ?_
  rw [Shape.rowMajor_val_one, Shape.rowMajor_val_two]
  show p.val = p.val * 1 + z.val
  have := z.isLt
  omega

/-- An `a × 1` column broadcast to `a × b` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- Over the extended reals the sum of an `n × m` matrix along its second axis reads, at `p`, `∑ₖ src (p, k)`. -/
theorem rowSum_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ)
    (p : Fin n) :
    multiReduction .add [1] ⟨1, ![n]⟩ src acc h hφ hacc (ix1 p) = ∑ k : Fin m, src (ix2 p k) := by
  refine (Ideal.multiReduction_add_single src acc h hφ hacc (ix1 p)).trans ?_
  refine Finset.sum_congr rfl fun k _ => congrArg src ?_
  funext c
  apply Fin.ext
  match c with
  | ⟨0, _⟩ => rfl
  | ⟨1, _⟩ => rfl

end Cert.LibColumns

end
-- ==== Proof.FilterBlocks.lean ====
/-
  The second region's output array: the filtered ratings plus the projected second-order vectors plus the bias.

  The region walks the 10,240 padded item columns in 4 blocks of 2,560. At each block it forms
  x + coef · (ax − x) on the block's columns, adds the product of the 256 gathered rows with the block's 2,560 rows of
  the (padded) second weight matrix — row against row, both contracted over their 64 columns — and adds the block of
  the bias row. The block it writes back is therefore the restriction of ONE array, `Spec.output`, to the block's
  columns. The blocks tile the columns (column q lies in block q / 2560), so after the region the output array is that
  array.
-/
import proofs.«103719_j43241730736177_1_alg».proof.Proof.Gen.KernelIdeal.Frame
import proofs.«103719_j43241730736177_1_alg».proof.Proof.Spec
import proofs.«103719_j43241730736177_1_alg».proof.Proof.LibDotRows
import proofs.«103719_j43241730736177_1_alg».proof.Proof.LibColumns
import Idealize.ShloMosaic.Lib.Pipeline.Value
import Idealize.ShloMosaic.Lib.ValueIdx
import Idealize.ShloMosaic.Lib.ValueLayout

set_option maxRecDepth 16384

noncomputable section

open scoped BigOperators

namespace Cert.KernelIdeal.ItemValue

open Cert.KernelIdeal Cert.KernelIdeal.Gen
open Idealize.ShloMosaic Idealize.ShloMosaic.TcCoe Idealize.ShloMosaic.ValueIdx
open Idealize.SL.Sem

/-- The stores' and loads' rectangles start at the origin. -/
theorem origin : (![0, 0] : Fin 2 → Nat) = fun _ => 0 := funext fun a => by fin_cases a <;> rfl

/-- The body's stored value at row `p`, column `q` of a block:
    ((x0 + x2 (p, 0) · (x1 − x0)) + ∑ₖ x3 (p, k) · x4 (q, k)) + x5 (0, q). The coefficient column is spread over the
    block's columns and the bias row over its rows; the roundings to the narrow format are the identity on extended
    reals and the matrix unit's product into the zero accumulator is the plain sum. -/
theorem stored_apply (x0 x1 : Vec Ideal S256x2560 .f32) (x2 : Vec Ideal S256x1 .f32) (x3 : Vec Ideal S256x64 .f32)
    (x4 : Vec Ideal S2560x64 .f32) (x5 : Vec Ideal S1x2560 .f32) (p : Fin 256) (q : Fin 2560) :
    k1_pay1 (F := Ideal) x0 x1 x2 x3 x4 x5 (ix2 p q)
      = (((x0 (ix2 p q) : EReal) + (x2 (ix2 p (0 : Fin 1)) : EReal) * ((x1 (ix2 p q) : EReal) - (x0 (ix2 p q) : EReal)))
          + ∑ k : Fin 64, (x3 (ix2 p k) : EReal) * (x4 (ix2 q k) : EReal)) + (x5 (ix2 (0 : Fin 1) q) : EReal) := by
  unfold k1_pay1
  simp only [shapeCast_self]
  refine (addf_apply _ _ _).trans ?_
  refine congrArg₂ (· + ·) ?_ (broadcastTo_1b_ab_apply x5 _ p q)
  refine (addf_apply _ _ _).trans ?_
  refine congrArg₂ (· + ·) ?_ (Idealize.ShloMosaic.DotRows.matmul_zero_apply dot_S256x64_S2560x64_S256x2560_1_1_0_0_n_n rfl rfl
    (fun _ _ => rfl) (fun _ _ => rfl) (fun _ _ => rfl) (fun _ _ => rfl) none _ _ p q)
  refine (addf_apply _ _ _).trans ?_
  refine congrArg (fun s => (x0 (ix2 p q) : EReal) + s) ?_
  refine (mulf_apply _ _ _).trans ?_
  exact congrArg₂ (· * ·) (Cert.LibColumns.broadcastTo_a1_ab_apply x2 _ p q) (subf_apply _ _ _)

variable (V : (c : Dev nD) → (b : Ref sig .tc) → Buf (Elt Ideal) ((c : Thread nD τ).loc b))

/-- The printed index maps, decided over the grid: block `t` of each column-blocked window starts at column block
    `t`; the second weight matrix's window at row block `t`; the coefficient column and the gathered rows are one block. -/
theorem index_facts : ∀ t : Fin cfg1.N, win1_0.index t (0 : Fin 2) = 0
    ∧ win1_0.index t (1 : Fin 2) = t.val
    ∧ win1_1.index t (0 : Fin 2) = 0
    ∧ win1_1.index t (1 : Fin 2) = t.val
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = t.val
    ∧ win1_4.index t (1 : Fin 2) = 0
    ∧ win1_5.index t (0 : Fin 2) = 0
    ∧ win1_5.index t (1 : Fin 2) = t.val
    ∧ win1_6.index t (0 : Fin 2) = 0
    ∧ win1_6.index t (1 : Fin 2) = t.val :=
  (by decide +kernel : ∀ t : Fin grid1.N, _)

/-- Column `q` of block `t` is padded column 2560 · t + q. -/
def itemCol (t : Fin cfg1.N) (q : Fin 2560) : Fin 10240 :=
  ⟨t.val * 2560 + q.val, by have := t.isLt; have hN : cfg1.N = 4 := N_1; have := q.isLt; omega⟩

/-- The ratings' block at point `t` is columns 2560 · t … of the padded ratings. -/
theorem rating_block (c : Dev nD) (t : Fin cfg1.N) (p : Fin 256) (q : Fin 2560) :
    (iblk1 V c 0 t : Vec Ideal S256x2560 .f32) (ix2 p q) = (V c main_v62 : S256x10240.Idx → EReal) (ix2 p (itemCol t q)) := by
  obtain ⟨e0, e1, e2, e3, e4, e5, e6, e7, e8, e9, e10, e11, e12, e13⟩ := index_facts t
  unfold iblk1
  rw [View.read_apply]
  show V c main_v62 _ = V c main_v62 _
  refine congrArg _ (funext fun a => Fin.ext ?_)
  match a with
  | ⟨0, _⟩ => show win1_0.index t (0 : Fin 2) * 256 + 1 * p.val = p.val; omega
  | ⟨1, _⟩ => show win1_0.index t (1 : Fin 2) * 2560 + 1 * q.val = t.val * 2560 + q.val; omega

/-- The propagated ratings' block at point `t` is the same columns of the padded propagated ratings. -/
theorem propagated_block (c : Dev nD) (t : Fin cfg1.N) (p : Fin 256) (q : Fin 2560) :
    (iblk1 V c 1 t : Vec Ideal S256x2560 .f32) (ix2 p q) = (V c main_v63 : S256x10240.Idx → EReal) (ix2 p (itemCol t q)) := by
  obtain ⟨e0, e1, e2, e3, e4, e5, e6, e7, e8, e9, e10, e11, e12, e13⟩ := index_facts t
  unfold iblk1
  rw [View.read_apply]
  show V c main_v63 _ = V c main_v63 _
  refine congrArg _ (funext fun a => Fin.ext ?_)
  match a with
  | ⟨0, _⟩ => show win1_1.index t (0 : Fin 2) * 256 + 1 * p.val = p.val; omega
  | ⟨1, _⟩ => show win1_1.index t (1 : Fin 2) * 2560 + 1 * q.val = t.val * 2560 + q.val; omega

/-- The coefficient column's block at every point is the whole column. -/
theorem coef_block (c : Dev nD) (t : Fin cfg1.N) (p : Fin 256) (z : Fin 1) :
    (iblk1 V c 2 t : Vec Ideal S256x1 .f32) (ix2 p z) = (V c main_v35 : S256x1.Idx → EReal) (ix2 p z) := by
  obtain ⟨e0, e1, e2, e3, e4, e5, e6, e7, e8, e9, e10, e11, e12, e13⟩ := index_facts t
  unfold iblk1
  rw [View.read_apply]
  show V c main_v35 _ = V c main_v35 _
  refine congrArg _ (funext fun a => Fin.ext ?_)
  match a with
  | ⟨0, _⟩ => show win1_2.index t (0 : Fin 2) * 256 + 1 * p.val = p.val; omega
  | ⟨1, _⟩ => show win1_2.index t (1 : Fin 2) * 1 + 1 * z.val = z.val; omega

/-- The gathered rows' block at every point is all 256 rows. -/
theorem rows_block (c : Dev nD) (t : Fin cfg1.N) (p : Fin 256) (k : Fin 64) :
    (iblk1 V c 3 t : Vec Ideal S256x64 .f32) (ix2 p k) = (V c main_v61 : S256x64.Idx → EReal) (ix2 p k) := by
  obtain ⟨e0, e1, e2, e3, e4, e5, e6, e7, e8, e9, e10, e11, e12, e13⟩ := index_facts t
  unfold iblk1
  rw [View.read_apply]
  show V c main_v61 _ = V c main_v61 _
  refine congrArg _ (funext fun a => Fin.ext ?_)
  match a with
  | ⟨0, _⟩ => show win1_3.index t (0 : Fin 2) * 256 + 1 * p.val = p.val; omega
  | ⟨1, _⟩ => show win1_3.index t (1 : Fin 2) * 64 + 1 * k.val = k.val; omega

/-- The second weight matrix's block at point `t` is rows 2560 · t … of the padded matrix. -/
theorem weight_block (c : Dev nD) (t : Fin cfg1.N) (q : Fin 2560) (k : Fin 64) :
    (iblk1 V c 4 t : Vec Ideal S2560x64 .f32) (ix2 q k) = (V c main_v64 : S10240x64.Idx → EReal) (ix2 (itemCol t q) k) := by
  obtain ⟨e0, e1, e2, e3, e4, e5, e6, e7, e8, e9, e10, e11, e12, e13⟩ := index_facts t
  unfold iblk1
  rw [View.read_apply]
  show V c main_v64 _ = V c main_v64 _
  refine congrArg _ (funext fun a => Fin.ext ?_)
  match a with
  | ⟨0, _⟩ => show win1_4.index t (0 : Fin 2) * 2560 + 1 * q.val = t.val * 2560 + q.val; omega
  | ⟨1, _⟩ => show win1_4.index t (1 : Fin 2) * 64 + 1 * k.val = k.val; omega

/-- The bias row's block at point `t` is columns 2560 · t … of the padded bias row. -/
theorem bias_block (c : Dev nD) (t : Fin cfg1.N) (z : Fin 1) (q : Fin 2560) :
    (iblk1 V c 5 t : Vec Ideal S1x2560 .f32) (ix2 z q) = (V c main_v66 : S1x10240.Idx → EReal) (ix2 z (itemCol t q)) := by
  obtain ⟨e0, e1, e2, e3, e4, e5, e6, e7, e8, e9, e10, e11, e12, e13⟩ := index_facts t
  unfold iblk1
  rw [View.read_apply]
  show V c main_v66 _ = V c main_v66 _
  refine congrArg _ (funext fun a => Fin.ext ?_)
  match a with
  | ⟨0, _⟩ => show win1_5.index t (0 : Fin 2) * 1 + 1 * z.val = z.val; omega
  | ⟨1, _⟩ => show win1_5.index t (1 : Fin 2) * 2560 + 1 * q.val = t.val * 2560 + q.val; omega

/-- Entry (p, q) of the output's block at point `t` sits at (p, 2560 · t + q) of the output array. -/
theorem out_block_index (t : Fin cfg1.N) (p : Fin 256) (q : Fin 2560) :
    ((cfg1.win 6).blk t).view.emb (ix2 p q) = (ix2 p (itemCol t q) : S256x10240.Idx) := by
  obtain ⟨e0, e1, e2, e3, e4, e5, e6, e7, e8, e9, e10, e11, e12, e13⟩ := index_facts t
  refine funext fun a => Fin.ext ?_
  match a with
  | ⟨0, _⟩ => show win1_6.index t (0 : Fin 2) * 256 + 1 * p.val = p.val; omega
  | ⟨1, _⟩ => show win1_6.index t (1 : Fin 2) * 2560 + 1 * q.val = t.val * 2560 + q.val; omega

/-- What point `t` writes back is block `t` of `Spec.output` of the arrays the region finds. -/
theorem flushed_eq (c : Dev nD) (t : Fin cfg1.N) :
    (dat1 V c).flushed 6 t
      = ((cfg1.win 6).blk t).view.read (Elt Ideal)
          (Cert.Spec.output (V c main_v62) (V c main_v63) (V c main_v35) (V c main_v61) (V c main_v64) (V c main_v66)) := by
  show (cfg1.win 6).cut (grid1.coords t) ((dat1 V c).after 6 t) = _
  rw [after1_6]
  unfold out1_6
  rw [View.canon_unit_zero origin]
  simp only [View.ld_unit_zero (S := S256x2560) origin, View.ld_unit_zero (S := S256x1) origin,
    View.ld_unit_zero (S := S256x64) origin, View.ld_unit_zero (S := S2560x64) origin, View.ld_unit_zero (S := S1x2560) origin]
  funext j
  obtain ⟨p, q, rfl⟩ : ∃ (p : Fin 256) (q : Fin 2560), j = ix2 p q := ⟨j 0, j 1, eq_ix2 j⟩
  rw [View.read_apply, out_block_index]
  refine (stored_apply _ _ _ _ _ _ p q).trans ?_
  show _ = Cert.Spec.outAt _ _ _ _ _ _ p (itemCol t q)
  unfold Cert.Spec.outAt
  rw [rating_block, propagated_block, coef_block, bias_block]
  refine congrArg (fun s => (_ + s) + _) (Finset.sum_congr rfl fun k _ => ?_)
  rw [rows_block, weight_block]

/-- An index of the output array is in point `t`'s block iff each coordinate is in the block's range on its axis. -/
theorem mem_block (t : Fin cfg1.N) (i : S256x10240.Idx) :
    i ∈ ((cfg1.win 6).blk t).view.set ↔ ∀ a : Fin 2, win1_6.index t a * S256x2560.size a ≤ (i a).val
      ∧ (i a).val < win1_6.index t a * S256x2560.size a + S256x2560.size a := by
  show i ∈ ((View.whole main_v67).slice (win1_6.rect t)).set ↔ _
  rw [View.set_slice_whole, Rect.mem_set_unit]
  exact Iff.rfl

/-- After the region the output array is `Spec.output` of the arrays the region found: column q lies in block q / 2560. -/
theorem output_array (c : Dev nD) :
    (dat1 V c).arrAt 6 cfg1.N
      = Cert.Spec.output (V c main_v62) (V c main_v63) (V c main_v35) (V c main_v61) (V c main_v64) (V c main_v66) := by
  refine (dat1 V c).arrAt_eq_of_cover 6 _ (fun t _ => flushed_eq V c t) fun i => ?_
  have hN : cfg1.N = 4 := N_1
  have hi0 : (i 0).val < 256 := (i 0).isLt
  have hi1 : (i 1).val < 10240 := (i 1).isLt
  refine ⟨⟨(i 1).val / 2560, by omega⟩, flush1_6 _, ?_⟩
  rw [mem_block]
  obtain ⟨e0, e1, e2, e3, e4, e5, e6, e7, e8, e9, e10, e11, e12, e13⟩ := index_facts ⟨(i 1).val / 2560, by omega⟩
  intro a
  match a with
  | ⟨0, _⟩ =>
    show win1_6.index _ (0 : Fin 2) * 256 ≤ (i 0).val ∧ (i 0).val < win1_6.index _ (0 : Fin 2) * 256 + 256
    rw [e12]
    omega
  | ⟨1, _⟩ =>
    show win1_6.index _ (1 : Fin 2) * 2560 ≤ (i 1).val ∧ (i 1).val < win1_6.index _ (1 : Fin 2) * 2560 + 2560
    rw [e13]
    show (i 1).val / 2560 * 2560 ≤ (i 1).val ∧ (i 1).val < (i 1).val / 2560 * 2560 + 2560
    omega

end Cert.KernelIdeal.ItemValue

end
-- ==== Proof.ReferenceEntries.lean ====
/-
  The reference's result, entry by entry.

  The reference filters the ratings, x + coef · (ax − x), and adds to them the gathered second-order rows projected by
  the transposed second weight matrix plus the bias spread over the rows. Read at entry (p, q) this is
  (x + coef (p) · (ax − x)) + (∑ₖ rows (p, k) · w (q, k) + b (q)): the transposed matrix's entry (k, q) is w (q, k).
  The edge messages it scatters are, entry by entry, `Spec.message` of the difference rows, the destination rows and
  the velocity matrix.
-/
import proofs.«103719_j43241730736177_1_alg».proof.Proof.Gen.ReferenceIdeal.Read
import proofs.«103719_j43241730736177_1_alg».proof.Proof.Spec

set_option maxRecDepth 16384

noncomputable section

open scoped BigOperators

namespace Cert.ReferenceIdeal.Entry

open Cert.ReferenceIdeal Cert.ReferenceIdeal.Read
open Idealize.ShloMosaic Idealize.ShloMosaic.ValueIdx

/-- The reference's edge messages are `Spec.message` of its difference rows, its destination rows and the velocity
    matrix: the host's product is the plain sum over the 64 contracted columns and its tanh the same function. -/
theorem messages_eq (x3 : (⟨S200000x64, .f32⟩ : BufTy).Contents (Elt Ideal)) (x4 : (⟨S64x64, .f32⟩ : BufTy).Contents (Elt Ideal))
    (x10 x11 : (⟨S1200000, .i32⟩ : BufTy).Contents (Elt Ideal)) :
    val_main_v57 (F := Ideal) x3 x4 x10 x11
      = Cert.Spec.message (val_main_v54 (F := Ideal) x3 x10 x11) (val_main_v46 (F := Ideal) x3 x11) x4 := by
  funext j
  obtain ⟨r, c, rfl⟩ : ∃ (r : Fin 1200000) (c : Fin 64), j = ix2 r c := ⟨j 0, j 1, eq_ix2 j⟩
  have el : ∀ k : Fin 64, lidx_main_v55 (ix2 r c) k = ix2 r k := fun k => funext fun a => Fin.ext (by
    match a with
    | ⟨0, _⟩ => rfl
    | ⟨1, _⟩ => rfl)
  have er : ∀ k : Fin 64, ridx_main_v55 (ix2 r c) k = ix2 k c := fun k => funext fun a => Fin.ext (by
    match a with
    | ⟨0, _⟩ => rfl
    | ⟨1, _⟩ => rfl)
  rw [val_main_v57_apply, val_main_v56_apply, val_main_v55_apply]
  simp only [el, er]
  rfl

/-- The reference's result at entry (p, q). -/
theorem result_apply (x0 : (⟨S256x10000, .f32⟩ : BufTy).Contents (Elt Ideal)) (x1 : (⟨S256, .i32⟩ : BufTy).Contents (Elt Ideal))
    (x2 : (⟨S256x1, .i32⟩ : BufTy).Contents (Elt Ideal)) (x3 : (⟨S200000x64, .f32⟩ : BufTy).Contents (Elt Ideal))
    (x4 : (⟨S64x64, .f32⟩ : BufTy).Contents (Elt Ideal)) (x5 : (⟨S10000x64, .f32⟩ : BufTy).Contents (Elt Ideal))
    (x6 : (⟨S10000, .f32⟩ : BufTy).Contents (Elt Ideal)) (x7 x8 : (⟨S400000, .i32⟩ : BufTy).Contents (Elt Ideal))
    (x9 : (⟨S400000, .f32⟩ : BufTy).Contents (Elt Ideal)) (x10 x11 : (⟨S1200000, .i32⟩ : BufTy).Contents (Elt Ideal))
    (x12 : (⟨S1, .f32⟩ : BufTy).Contents (Elt Ideal)) (p : Fin 256) (q : Fin 10000) :
    val_main_v73 (F := Ideal) x0 x1 x2 x3 x4 x5 x6 x7 x8 x9 x10 x11 x12 (ix2 p q)
      = ((x0 (ix2 p q) : EReal) + (val_main_v35 (F := Ideal) x2 (ix2 p (0 : Fin 1)) : EReal)
            * ((val_main_v30 (F := Ideal) x0 x7 x8 x9 x12 (ix2 p q) : EReal) - (x0 (ix2 p q) : EReal)))
        + ((∑ k : Fin 64, (val_main_v67 (F := Ideal) x1 x3 x4 x10 x11 (ix2 p k) : EReal) * (x5 (ix2 q k) : EReal))
            + (x6 (ix1 q) : EReal)) := by
  have e37 : idx_main_v37 (ix2 p q) = ix2 p (0 : Fin 1) := funext fun a => Fin.ext (by
    match a with
    | ⟨0, _⟩ => rfl
    | ⟨1, _⟩ => rfl)
  have el : ∀ k : Fin 64, lidx_main_v69 (ix2 p q) k = ix2 p k := fun k => funext fun a => Fin.ext (by
    match a with
    | ⟨0, _⟩ => rfl
    | ⟨1, _⟩ => rfl)
  have er : ∀ k : Fin 64, idx_main_v68 (ridx_main_v69 (ix2 p q) k) = ix2 q k := fun k => funext fun a => Fin.ext (by
    match a with
    | ⟨0, _⟩ => rfl
    | ⟨1, _⟩ => rfl)
  have e70 : idx_main_v70 (idx_main_v71 (ix2 p q)) = ix1 q := funext fun a => Fin.ext (by
    match a with
    | ⟨0, _⟩ => rfl)
  rw [val_main_v73_apply, val_main_v39_apply, val_main_v38_apply, val_main_v37_apply, val_main_v36_apply,
    val_main_v72_apply, val_main_v69_apply, val_main_v71_apply, val_main_v70_apply]
  simp only [val_main_v68_apply, e37, el, er, e70]
  rfl

end Cert.ReferenceIdeal.Entry

end
-- ==== Proof.HostStretches.lean ====
/-
  What the host stretches of the idealized kernel program leave in the buffers the two regions read.

  Before the first region the host computes, from the arguments, the propagated ratings, the filter coefficient, every
  edge's destination row and difference row — by the same operations as the reference, so each is the reference's
  corresponding stage of the same arguments. The first region leaves the edges' messages. Between the regions the host
  scatter-adds the messages onto their source entities and gathers the batch's rows — again the reference's operations,
  so the gathered rows are the reference's — and pads the ratings, the propagated ratings, the second weight matrix and
  the bias to 10,240 item columns. After the second region it cuts the result back to the 10,000 columns.
-/
import proofs.«103719_j43241730736177_1_alg».proof.Proof.Gen.KernelIdeal.Frame
import proofs.«103719_j43241730736177_1_alg».proof.Proof.Gen.ReferenceIdeal.Read
import proofs.«103719_j43241730736177_1_alg».proof.Proof.Spec
import proofs.«103719_j43241730736177_1_alg».proof.Proof.MessageBlocks
import proofs.«103719_j43241730736177_1_alg».proof.Proof.FilterBlocks
import proofs.«103719_j43241730736177_1_alg».proof.Proof.ReferenceEntries

set_option maxRecDepth 16384

noncomputable section

namespace Cert.KernelIdeal.HostValue

open Cert.KernelIdeal Cert.KernelIdeal.Gen
open Idealize.ShloMosaic Idealize.ShloMosaic.TcCoe Idealize.ShloMosaic.StableHlo
open Idealize.SL.Sem

variable (m : (ℓ : Loc nD τ sig) → Buf (Elt Ideal) ℓ) (ρ : Dev nD → PrngReg)

/-! ## At the first region's entry -/

/-- No host operation before the first region writes argument 0. -/
theorem entry_arg0 (c : Dev nD) : W1 m ρ c (Proc.devRef .tc main_arg0) = (m ((c : Thread nD τ).loc main_arg0)) := by
  show StableHlo.after hostOps0 (W0 m ρ c) (Proc.devRef .tc main_arg0) = _
  after_results_simp

/-- No host operation before the first region writes argument 1. -/
theorem entry_arg1 (c : Dev nD) : W1 m ρ c (Proc.devRef .tc main_arg1) = (m ((c : Thread nD τ).loc main_arg1)) := by
  show StableHlo.after hostOps0 (W0 m ρ c) (Proc.devRef .tc main_arg1) = _
  after_results_simp

/-- No host operation before the first region writes argument 4. -/
theorem entry_arg4 (c : Dev nD) : W1 m ρ c (Proc.devRef .tc main_arg4) = (m ((c : Thread nD τ).loc main_arg4)) := by
  show StableHlo.after hostOps0 (W0 m ρ c) (Proc.devRef .tc main_arg4) = _
  after_results_simp

/-- No host operation before the first region writes argument 5. -/
theorem entry_arg5 (c : Dev nD) : W1 m ρ c (Proc.devRef .tc main_arg5) = (m ((c : Thread nD τ).loc main_arg5)) := by
  show StableHlo.after hostOps0 (W0 m ρ c) (Proc.devRef .tc main_arg5) = _
  after_results_simp

/-- No host operation before the first region writes argument 6. -/
theorem entry_arg6 (c : Dev nD) : W1 m ρ c (Proc.devRef .tc main_arg6) = (m ((c : Thread nD τ).loc main_arg6)) := by
  show StableHlo.after hostOps0 (W0 m ρ c) (Proc.devRef .tc main_arg6) = _
  after_results_simp

/-- No host operation before the first region writes argument 10. -/
theorem entry_arg10 (c : Dev nD) : W1 m ρ c (Proc.devRef .tc main_arg10) = (m ((c : Thread nD τ).loc main_arg10)) := by
  show StableHlo.after hostOps0 (W0 m ρ c) (Proc.devRef .tc main_arg10) = _
  after_results_simp

/-- The propagated ratings are the reference's, of the same arguments. -/
theorem entry_propagated (c : Dev nD) : W1 m ρ c (Proc.devRef .tc main_v30)
    = Cert.ReferenceIdeal.Read.val_main_v30 (F := Ideal) (m ((c : Thread nD τ).loc main_arg0)) (m ((c : Thread nD τ).loc main_arg7)) (m ((c : Thread nD τ).loc main_arg8)) (m ((c : Thread nD τ).loc main_arg9)) (m ((c : Thread nD τ).loc main_arg12)) := by
  show StableHlo.after hostOps0 (W0 m ρ c) (Proc.devRef .tc main_v30) = _
  after_results_simp
  rfl

/-- The filter coefficient is the reference's. -/
theorem entry_coef (c : Dev nD) : W1 m ρ c (Proc.devRef .tc main_v35) = Cert.ReferenceIdeal.Read.val_main_v35 (F := Ideal) (m ((c : Thread nD τ).loc main_arg2)) := by
  show StableHlo.after hostOps0 (W0 m ρ c) (Proc.devRef .tc main_v35) = _
  after_results_simp
  rfl

/-- The edges' destination rows are the reference's. -/
theorem entry_dest (c : Dev nD) : W1 m ρ c (Proc.devRef .tc main_v42)
    = Cert.ReferenceIdeal.Read.val_main_v46 (F := Ideal) (m ((c : Thread nD τ).loc main_arg3)) (m ((c : Thread nD τ).loc main_arg11)) := by
  show StableHlo.after hostOps0 (W0 m ρ c) (Proc.devRef .tc main_v42) = _
  after_results_simp
  rfl

/-- The edges' difference rows are the reference's. -/
theorem entry_delta (c : Dev nD) : W1 m ρ c (Proc.devRef .tc main_v50)
    = Cert.ReferenceIdeal.Read.val_main_v54 (F := Ideal) (m ((c : Thread nD τ).loc main_arg3)) (m ((c : Thread nD τ).loc main_arg10)) (m ((c : Thread nD τ).loc main_arg11)) := by
  show StableHlo.after hostOps0 (W0 m ρ c) (Proc.devRef .tc main_v50) = _
  after_results_simp
  rfl

/-! ## At the first region's exit -/

/-- The first region leaves the reference's edge messages. -/
theorem exit_messages (c : Dev nD) : W2 m ρ c (Proc.devRef .tc main_v51)
    = Cert.ReferenceIdeal.Read.val_main_v57 (F := Ideal) (m ((c : Thread nD τ).loc main_arg3)) (m ((c : Thread nD τ).loc main_arg4)) (m ((c : Thread nD τ).loc main_arg10)) (m ((c : Thread nD τ).loc main_arg11)) := by
  show W2 m ρ c (Proc.devRef .tc (Pipeline.arrRef spec0 3)) = _
  rw [W2_arr, Cert.KernelIdeal.EdgeValue.message_array (V1 m ρ) c]
  show Cert.Spec.message (W1 m ρ c (Proc.devRef .tc main_v50)) (W1 m ρ c (Proc.devRef .tc main_v42))
    (W1 m ρ c (Proc.devRef .tc main_arg4)) = _
  rw [entry_delta, entry_dest, entry_arg4, Cert.ReferenceIdeal.Entry.messages_eq]

/-- The first region does not write argument 0. -/
theorem exit_arg0 (c : Dev nD) : W2 m ρ c (Proc.devRef .tc main_arg0) = (m ((c : Thread nD τ).loc main_arg0)) :=
  (W2_of_ne m ρ c main_arg0 (by decide)).trans (entry_arg0 m ρ c)

/-- The first region does not write argument 1. -/
theorem exit_arg1 (c : Dev nD) : W2 m ρ c (Proc.devRef .tc main_arg1) = (m ((c : Thread nD τ).loc main_arg1)) :=
  (W2_of_ne m ρ c main_arg1 (by decide)).trans (entry_arg1 m ρ c)

/-- The first region does not write argument 5. -/
theorem exit_arg5 (c : Dev nD) : W2 m ρ c (Proc.devRef .tc main_arg5) = (m ((c : Thread nD τ).loc main_arg5)) :=
  (W2_of_ne m ρ c main_arg5 (by decide)).trans (entry_arg5 m ρ c)

/-- The first region does not write argument 6. -/
theorem exit_arg6 (c : Dev nD) : W2 m ρ c (Proc.devRef .tc main_arg6) = (m ((c : Thread nD τ).loc main_arg6)) :=
  (W2_of_ne m ρ c main_arg6 (by decide)).trans (entry_arg6 m ρ c)

/-- The first region does not write argument 10. -/
theorem exit_arg10 (c : Dev nD) : W2 m ρ c (Proc.devRef .tc main_arg10) = (m ((c : Thread nD τ).loc main_arg10)) :=
  (W2_of_ne m ρ c main_arg10 (by decide)).trans (entry_arg10 m ρ c)

/-- The first region does not write the propagated ratings. -/
theorem exit_propagated (c : Dev nD) : W2 m ρ c (Proc.devRef .tc main_v30)
    = Cert.ReferenceIdeal.Read.val_main_v30 (F := Ideal) (m ((c : Thread nD τ).loc main_arg0)) (m ((c : Thread nD τ).loc main_arg7)) (m ((c : Thread nD τ).loc main_arg8)) (m ((c : Thread nD τ).loc main_arg9)) (m ((c : Thread nD τ).loc main_arg12)) :=
  (W2_of_ne m ρ c main_v30 (by decide)).trans (entry_propagated m ρ c)

/-- The first region does not write the filter coefficient. -/
theorem exit_coef (c : Dev nD) : W2 m ρ c (Proc.devRef .tc main_v35) = Cert.ReferenceIdeal.Read.val_main_v35 (F := Ideal) (m ((c : Thread nD τ).loc main_arg2)) :=
  (W2_of_ne m ρ c main_v35 (by decide)).trans (entry_coef m ρ c)

/-! ## At the second region's entry -/

/-- The ratings padded to 10,240 columns. -/
theorem second_ratings (c : Dev nD) : W11 m ρ c (Proc.devRef .tc main_v62)
    = pad S256x10240 ![0, 0] ![0, 240] ![0, 0] (m ((c : Thread nD τ).loc main_arg0)) (sitofp (F := Ideal) .f32 (constantI S_ 32 0#32))
        pads_S256x10000_S256x10240_000_02400 h_S_ := by
  dsimp only [W11, W10, W9, W8, W7, W6, W5, W4, W3]
  after_results
  rw [exit_arg0]
  rfl

/-- The propagated ratings padded to 10,240 columns. -/
theorem second_propagated (c : Dev nD) : W11 m ρ c (Proc.devRef .tc main_v63)
    = pad S256x10240 ![0, 0] ![0, 240] ![0, 0]
        (Cert.ReferenceIdeal.Read.val_main_v30 (F := Ideal) (m ((c : Thread nD τ).loc main_arg0)) (m ((c : Thread nD τ).loc main_arg7)) (m ((c : Thread nD τ).loc main_arg8)) (m ((c : Thread nD τ).loc main_arg9)) (m ((c : Thread nD τ).loc main_arg12)))
        (sitofp (F := Ideal) .f32 (constantI S_ 32 0#32)) pads_S256x10000_S256x10240_000_02400 h_S_ := by
  dsimp only [W11, W10, W9, W8, W7, W6, W5, W4, W3]
  after_results
  rw [exit_propagated]
  rfl

/-- The filter coefficient, untouched between the regions. -/
theorem second_coef (c : Dev nD) : W11 m ρ c (Proc.devRef .tc main_v35) = Cert.ReferenceIdeal.Read.val_main_v35 (F := Ideal) (m ((c : Thread nD τ).loc main_arg2)) := by
  dsimp only [W11, W10, W9, W8, W7, W6, W5, W4, W3]
  after_results
  rw [exit_coef]

set_option maxHeartbeats 2000000 in
/-- The batch's gathered second-order rows are the reference's. -/
theorem second_rows (c : Dev nD) : W11 m ρ c (Proc.devRef .tc main_v61)
    = Cert.ReferenceIdeal.Read.val_main_v67 (F := Ideal) (m ((c : Thread nD τ).loc main_arg1)) (m ((c : Thread nD τ).loc main_arg3)) (m ((c : Thread nD τ).loc main_arg4)) (m ((c : Thread nD τ).loc main_arg10)) (m ((c : Thread nD τ).loc main_arg11)) := by
  dsimp only [W11, W10, W9, W8, W7, W6, W5, W4, W3]
  after_results_simp
  rw [exit_messages, exit_arg10, exit_arg1]
  rfl

/-- The second weight matrix padded to 10,240 rows. -/
theorem second_weights (c : Dev nD) : W11 m ρ c (Proc.devRef .tc main_v64)
    = pad S10240x64 ![0, 0] ![240, 0] ![0, 0] (m ((c : Thread nD τ).loc main_arg5)) (sitofp (F := Ideal) .f32 (constantI S_ 32 0#32))
        pads_S10000x64_S10240x64_02400_000 h_S_ := by
  dsimp only [W11, W10, W9, W8, W7, W6, W5, W4, W3]
  after_results
  rw [exit_arg5]
  rfl

/-- The bias padded to 10,240 entries and laid out as a row. -/
theorem second_bias (c : Dev nD) : W11 m ρ c (Proc.devRef .tc main_v66)
    = shapeCast S1x10240 (pad S10240 ![0] ![240] ![0] (m ((c : Thread nD τ).loc main_arg6)) (sitofp (F := Ideal) .f32 (constantI S_ 32 0#32))
        pads_S10000_S10240_02400 h_S_) shapeCasts_S10240_S1x10240 := by
  dsimp only [W11, W10, W9, W8, W7, W6, W5, W4, W3]
  after_results
  rw [exit_arg6]
  rfl

end Cert.KernelIdeal.HostValue

end
-- ==== Proof.LibPadInside.lean ====
/-
  A reusable general lemma: an array padded at the high end of one axis, read at an entry inside the original.

  The host's `pad` with no low padding and no interior padding keeps every entry of its operand where it was and
  fills the new entries with the padding value. So the padded array read at an index whose every coordinate is below
  the operand's extent reads the operand at the same coordinates — whatever the padding value is. Stated for a matrix
  padded along its columns, a matrix padded along its rows and a vector, at any extents.
-/
import Idealize.ShloMosaic.Lib.ValueIdx
import Idealize.ShloMosaic.Lib.KernelVsHost

noncomputable section

namespace Idealize.ShloMosaic.PadInside

open Idealize.ShloMosaic Idealize.ShloMosaic.ValueIdx

variable {α : Type}

/-- A MATRIX PADDED ALONG ITS COLUMNS, READ AT (p, q) WITH q BELOW THE OLD WIDTH: the operand's entry (p, q). -/
theorem pad_cols_apply {a b B e : Nat} (x : (⟨2, ![a, b]⟩ : Shape).Idx → α) {u : Shape} (v : u.Idx → α)
    (h : (⟨2, ![a, b]⟩ : Shape).Pads ![0, 0] ![0, e] ![0, 0] ⟨2, ![a, B]⟩) (hu : 0 < u.numel)
    (p : Fin a) (q : Fin b) (q' : Fin B) (hq : q'.val = q.val) :
    pad ⟨2, ![a, B]⟩ ![0, 0] ![0, e] ![0, 0] x v h hu (ix2 p q') = x (ix2 p q) := by
  refine pad_apply_of_inside _ _ _ x v h hu (ix2 p q') (ix2 p q) fun ax => ?_
  match ax with
  | ⟨0, _⟩ => show p.val = 0 + p.val * (0 + 1); omega
  | ⟨1, _⟩ => show q'.val = 0 + q.val * (0 + 1); omega

/-- A MATRIX PADDED ALONG ITS ROWS, READ AT (q, k) WITH q BELOW THE OLD HEIGHT: the operand's entry (q, k). -/
theorem pad_rows_apply {a A b e : Nat} (x : (⟨2, ![a, b]⟩ : Shape).Idx → α) {u : Shape} (v : u.Idx → α)
    (h : (⟨2, ![a, b]⟩ : Shape).Pads ![0, 0] ![e, 0] ![0, 0] ⟨2, ![A, b]⟩) (hu : 0 < u.numel)
    (q : Fin a) (q' : Fin A) (k : Fin b) (hq : q'.val = q.val) :
    pad ⟨2, ![A, b]⟩ ![0, 0] ![e, 0] ![0, 0] x v h hu (ix2 q' k) = x (ix2 q k) := by
  refine pad_apply_of_inside _ _ _ x v h hu (ix2 q' k) (ix2 q k) fun ax => ?_
  match ax with
  | ⟨0, _⟩ => show q'.val = 0 + q.val * (0 + 1); omega
  | ⟨1, _⟩ => show k.val = 0 + k.val * (0 + 1); omega

/-- A VECTOR PADDED AT ITS END, READ AT q BELOW THE OLD LENGTH: the operand's entry q. -/
theorem pad_vec_apply {a A e : Nat} (x : (⟨1, ![a]⟩ : Shape).Idx → α) {u : Shape} (v : u.Idx → α)
    (h : (⟨1, ![a]⟩ : Shape).Pads ![0] ![e] ![0] ⟨1, ![A]⟩) (hu : 0 < u.numel)
    (q : Fin a) (q' : Fin A) (hq : q'.val = q.val) :
    pad ⟨1, ![A]⟩ ![0] ![e] ![0] x v h hu (ix1 q') = x (ix1 q) := by
  refine pad_apply_of_inside _ _ _ x v h hu (ix1 q') (ix1 q) fun ax => ?_
  match ax with
  | ⟨0, _⟩ => show q'.val = 0 + q.val * (0 + 1); omega

end Idealize.ShloMosaic.PadInside

end
-- ==== Proof.Equivalence.lean ====
/-
  The idealized kernel program's result is the reference's result of the same arguments.

  The second region leaves `Spec.output` of the padded ratings, the padded propagated ratings, the coefficient, the
  gathered rows, the padded second weight matrix and the padded bias row, and the last host operation cuts it back to
  the 10,000 item columns. At an entry (p, q) with q < 10,000 every padded array reads its unpadded operand, so the
  entry is ((x + coef · (ax − x)) + ∑ₖ rows (p, k) · w (q, k)) + b (q), where the reference has
  (x + coef · (ax − x)) + (∑ₖ rows (p, k) · w (q, k) + b (q)): the two differ by the associativity of addition, which
  holds on the extended reals without any finiteness.
-/
import proofs.«103719_j43241730736177_1_alg».proof.Proof.HostStretches
import proofs.«103719_j43241730736177_1_alg».proof.Proof.LibPadInside
import Idealize.ShloMosaic.Lib.ValueLayout

set_option maxRecDepth 16384

noncomputable section

open scoped BigOperators

namespace Cert.KernelIdeal.Equivalence

open Cert.KernelIdeal Cert.KernelIdeal.Gen Cert.KernelIdeal.HostValue
open Idealize.ShloMosaic Idealize.ShloMosaic.TcCoe Idealize.ShloMosaic.StableHlo Idealize.ShloMosaic.ValueIdx
open Idealize.SL.Sem

variable (m : (ℓ : Loc nD τ sig) → Buf (Elt Ideal) ℓ) (ρ : Dev nD → PrngReg)

/-- What the second region leaves in its output array. -/
theorem exit_output (c : Dev nD) : W12 m ρ c (Proc.devRef .tc main_v67)
    = Cert.Spec.output
        (pad S256x10240 ![0, 0] ![0, 240] ![0, 0] (m ((c : Thread nD τ).loc main_arg0)) (sitofp (F := Ideal) .f32 (constantI S_ 32 0#32))
          pads_S256x10000_S256x10240_000_02400 h_S_)
        (pad S256x10240 ![0, 0] ![0, 240] ![0, 0]
          (Cert.ReferenceIdeal.Read.val_main_v30 (F := Ideal) (m ((c : Thread nD τ).loc main_arg0)) (m ((c : Thread nD τ).loc main_arg7)) (m ((c : Thread nD τ).loc main_arg8)) (m ((c : Thread nD τ).loc main_arg9)) (m ((c : Thread nD τ).loc main_arg12)))
          (sitofp (F := Ideal) .f32 (constantI S_ 32 0#32)) pads_S256x10000_S256x10240_000_02400 h_S_)
        (Cert.ReferenceIdeal.Read.val_main_v35 (F := Ideal) (m ((c : Thread nD τ).loc main_arg2)))
        (Cert.ReferenceIdeal.Read.val_main_v67 (F := Ideal) (m ((c : Thread nD τ).loc main_arg1)) (m ((c : Thread nD τ).loc main_arg3)) (m ((c : Thread nD τ).loc main_arg4)) (m ((c : Thread nD τ).loc main_arg10)) (m ((c : Thread nD τ).loc main_arg11)))
        (pad S10240x64 ![0, 0] ![240, 0] ![0, 0] (m ((c : Thread nD τ).loc main_arg5)) (sitofp (F := Ideal) .f32 (constantI S_ 32 0#32))
          pads_S10000x64_S10240x64_02400_000 h_S_)
        (shapeCast S1x10240 (pad S10240 ![0] ![240] ![0] (m ((c : Thread nD τ).loc main_arg6)) (sitofp (F := Ideal) .f32 (constantI S_ 32 0#32))
          pads_S10000_S10240_02400 h_S_) shapeCasts_S10240_S1x10240) := by
  show W12 m ρ c (Proc.devRef .tc (Pipeline.arrRef spec1 6)) = _
  rw [W12_arr, Cert.KernelIdeal.ItemValue.output_array (V11 m ρ) c]
  show Cert.Spec.output (W11 m ρ c (Proc.devRef .tc main_v62)) (W11 m ρ c (Proc.devRef .tc main_v63))
    (W11 m ρ c (Proc.devRef .tc main_v35)) (W11 m ρ c (Proc.devRef .tc main_v61))
    (W11 m ρ c (Proc.devRef .tc main_v64)) (W11 m ρ c (Proc.devRef .tc main_v66)) = _
  rw [second_ratings, second_propagated, second_coef, second_rows, second_weights, second_bias]

/-- The result array after the run is the reference's result stage of the arguments. -/
theorem result_eq (c : Dev nD) : W13 m ρ c (Proc.devRef .tc main_v68)
    = Cert.ReferenceIdeal.Read.val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  show StableHlo.after hostOps2 (W12 m ρ c) (Proc.devRef .tc main_v68) = _
  after_results
  rw [exit_output]
  funext j
  obtain ⟨p, q, rfl⟩ : ∃ (p : Fin 256) (q : Fin 10000), j = ix2 p q := ⟨j 0, j 1, eq_ix2 j⟩
  have hq : q.val < 10240 := by have := q.isLt; omega
  refine (slice2_axis1_apply 0 _ _ p q ⟨q.val, hq⟩ (Nat.zero_add _).symm).trans ?_
  rw [Cert.ReferenceIdeal.Entry.result_apply, ← add_assoc]
  show Cert.Spec.outAt _ _ _ _ _ _ p ⟨q.val, hq⟩ = _
  unfold Cert.Spec.outAt
  have hx := Idealize.ShloMosaic.PadInside.pad_cols_apply (m ((c : Thread nD τ).loc main_arg0)) (sitofp (F := Ideal) .f32 (constantI S_ 32 0#32))
    pads_S256x10000_S256x10240_000_02400 h_S_ p q ⟨q.val, hq⟩ rfl
  have hax := Idealize.ShloMosaic.PadInside.pad_cols_apply
    (Cert.ReferenceIdeal.Read.val_main_v30 (F := Ideal) (m ((c : Thread nD τ).loc main_arg0)) (m ((c : Thread nD τ).loc main_arg7)) (m ((c : Thread nD τ).loc main_arg8)) (m ((c : Thread nD τ).loc main_arg9)) (m ((c : Thread nD τ).loc main_arg12)))
    (sitofp (F := Ideal) .f32 (constantI S_ 32 0#32)) pads_S256x10000_S256x10240_000_02400 h_S_ p q ⟨q.val, hq⟩ rfl
  have hw : ∀ k : Fin 64, _ := fun k => Idealize.ShloMosaic.PadInside.pad_rows_apply (m ((c : Thread nD τ).loc main_arg5))
    (sitofp (F := Ideal) .f32 (constantI S_ 32 0#32)) pads_S10000x64_S10240x64_02400_000 h_S_ q ⟨q.val, hq⟩ k rfl
  have hb := (shapeCast_a_1a_apply (pad S10240 ![0] ![240] ![0] (m ((c : Thread nD τ).loc main_arg6)) (sitofp (F := Ideal) .f32 (constantI S_ 32 0#32))
      pads_S10000_S10240_02400 h_S_) shapeCasts_S10240_S1x10240 (0 : Fin 1) ⟨q.val, hq⟩).trans
    (Idealize.ShloMosaic.PadInside.pad_vec_apply (m ((c : Thread nD τ).loc main_arg6)) (sitofp (F := Ideal) .f32 (constantI S_ 32 0#32))
      pads_S10000_S10240_02400 h_S_ q ⟨q.val, hq⟩ rfl)
  rw [hx, hax, hb]
  simp only [hw]

end Cert.KernelIdeal.Equivalence

end
-- ==== Proof.lean ====
/-
  A knowledge-graph diffusion recommender step: the kernel program against its reference, on the extended reals.

  Both programs propagate the ratings through the user–item graph (two sparse products written as gathers and
  scatter-adds), filter them, x + coef · (ax − x), and add a second-order term: every knowledge-graph edge sends
  tanh (delta · W_vel) · xd to its source entity, the batch's entities' sums are projected by the second weight matrix,
  and the bias is added. The kernel program computes the edge messages in one pipelined region over 100 blocks of
  12,000 edges and the filter, the projection and the bias in a second region over 4 blocks of 2,560 (padded) item
  columns; everything else it does on the host with the reference's own operations.

  The frames of the two kernel programs are the generated ones; the reference's is its generated run with the result
  dropped. The idealization rewrote nothing, so `preserves` is trivial. For the algebraic claim both runs end with
  the result at the reference's last stage of the arguments: the reference by its run read stage by stage, the kernel
  program by `Equivalence.result_eq` — the regions' outputs as whole arrays (`MessageBlocks`, `FilterBlocks`),
  the host stretches between them (`HostStretches`), and the associativity of addition on the extended reals. No
  step needs the inputs to be finite.
-/
import proofs.«103719_j43241730736177_1_alg».proof.Defs
import proofs.«103719_j43241730736177_1_alg».proof.Proof.Gen.Kernel
import proofs.«103719_j43241730736177_1_alg».proof.Proof.Gen.Kernel.Frame
import proofs.«103719_j43241730736177_1_alg».proof.Proof.Gen.KernelIdeal
import proofs.«103719_j43241730736177_1_alg».proof.Proof.Gen.KernelIdeal.Frame
import proofs.«103719_j43241730736177_1_alg».proof.Proof.Gen.ReferenceIdeal
import proofs.«103719_j43241730736177_1_alg».proof.Proof.Gen.ReferenceIdeal.Run
import proofs.«103719_j43241730736177_1_alg».proof.Proof.Gen.ReferenceIdeal.Read
import proofs.«103719_j43241730736177_1_alg».proof.Proof.Gen.Pre_finite_inputs
import proofs.«103719_j43241730736177_1_alg».proof.Proof.KernelRun
import proofs.«103719_j43241730736177_1_alg».proof.Proof.Equivalence

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference is host operations only: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result at the reference's last stage of the (agreeing) arguments. -/
theorem algebraic : Cert.algebraic_KernelIdeal_ReferenceIdeal := by
  intro m ρ m' ρ' _ hagree
  refine ⟨fun c => Cert.ReferenceIdeal.Read.val_main_v73 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono
      (fun _ h c => ⟨(h c).1.trans (Cert.KernelIdeal.Equivalence.result_eq m ρ c), (h c).2⟩)
      (Cert.KernelIdeal.Result.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v73_eq]
    obtain ⟨h0, h1, h2, h3, h4, h5, h6, h7, h8, h9, h10, h11, h12⟩ := hagree c
    rw [h0, h1, h2, h3, h4, h5, h6, h7, h8, h9, h10, h11, h12]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
